-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S50000x32 : Shape := ⟨2, ![50000, 32]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S96x128 : Shape := ⟨2, ![96, 128]⟩
abbrev S800000x2 : Shape := ⟨2, ![800000, 2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S50000x32 : S_.BroadcastsInDim S50000x32 (![] : Fin 0 → Fin S50000x32.rank)
  reducesTo_S50000x32_S_d0_1 : S50000x32.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S96x128 : S_.BroadcastsInDim S96x128 (![] : Fin 0 → Fin S96x128.rank)
  reducesTo_S96x128_S_d0_1 : S96x128.ReducesTo [0, 1] S_

variable [Facts]

def fn_part3 {F : FTy → Type} [FloatOps F] (main_arg11 : FVec F S128x64 .f32) (main_arg12 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg7 : FVec F S128x64 .f32) (main_arg8 : FVec F S64 .f32) (main_arg9 : FVec F S96x128 .f32) (main_arg10 : FVec F S128 .f32) (main_arg11 : FVec F S128x64 .f32) (main_arg12 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S96x128 .f32 := Host.absf main_arg9
  let main_cst_16 : FVec F S_ .f32 := constant S_ .f32 0x7F800000#32
  let main_v45 : FVec F S96x128 .f32 := broadcastInDim S96x128 ![] bcast_S_S96x128 main_cst_16
  let main_v46 : IVec S96x128 1 := cmpf .olt main_v44 main_v45
  let main_c_17 : IVec S_ 1 := constantI S_ 1 1#1
  let main_v47 : IVec S_ 1 := (fun x v => Host.reduce IntOp.andi x v reducesTo_S96x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x64 .f32) (main_arg8 : FVec F S64 .f32) (main_arg9 : FVec F S96x128 .f32) (main_arg10 : FVec F S128 .f32) (main_arg11 : FVec F S128x64 .f32) (main_arg12 : FVec F S64 .f32) (main_v13 : IVec S_ 1) (main_v16 : IVec S192x128 1) : IVec S_ 1 :=
  let main_c_5 : IVec S_ 1 := constantI S_ 1 1#1
  let main_v17 : IVec S_ 1 := (fun x v => Host.reduce IntOp.andi x v reducesTo_S192x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x64 .f32) (main_arg1 : FVec F S800000x32 .f32) (main_arg2 : FVec F S50000x32 .f32) (main_arg3 : FVec F S192x128 .f32) (main_arg4 : FVec F S128 .f32) (main_arg5 : FVec F S128x128 .f32) (main_arg6 : FVec F S128 .f32) (main_arg7 : FVec F S128x64 .f32) (main_arg8 : FVec F S64 .f32) (main_arg9 : FVec F S96x128 .f32) (main_arg10 : FVec F S128 .f32) (main_arg11 : FVec F S128x64 .f32) (main_arg12 : FVec F S64 .f32) (main_arg13 : IVec S800000x2 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S50000x32 .f32 := Host.absf main_arg2
  let main_cst_2 : FVec F S_ .f32 := constant S_ .f32 0x7F800000#32
  let main_v10 : FVec F S50000x32 .f32 := broadcastInDim S50000x32 ![] bcast_S_S50000x32 main_cst_2
  let main_v11 : IVec S50000x32 1 := cmpf .olt main_v9 main_v10
  let main_c_3 : IVec S_ 1 := constantI S_ 1 1#1
  let main_v12 : IVec S_ 1 := (fun x v => Host.reduce IntOp.andi x v reducesTo_S50000x32_S_d0_1 h_S_) main_v11 main_c_3
  let main_v13 : IVec S_ 1 := andi main_v8 main_v12
  let main_v14 : FVec F S192x128 .f32 := Host.absf main_arg3
  let main_cst_4 : FVec F S_ .f32 := constant S_ .f32 0x7F800000#32
  let main_v15 : FVec F S192x128 .f32 := broadcastInDim S192x128 ![] bcast_S_S192x128 main_cst_4
  let main_v16 : IVec S192x128 1 := cmpf .olt main_v14 main_v15
  fn_part1 (F := F) main_arg4 main_arg5 main_arg6 main_arg7 main_arg8 main_arg9 main_arg10 main_arg11 main_arg12 main_v13 main_v16
-- ==== Kernel.lean ====
abbrev S50000x64 : Shape := ⟨2, ![50000, 64]⟩
abbrev S800000x32 : Shape := ⟨2, ![800000, 32]⟩
abbrev S50000x32 : Shape := ⟨2, ![50000, 32]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S96x128 : Shape := ⟨2, ![96, 128]⟩
abbrev S800000x2 : Shape := ⟨2, ![800000, 2]⟩
abbrev S800000x1 : Shape := ⟨2, ![800000, 1]⟩
abbrev S800000 : Shape := ⟨1, ![800000]⟩
abbrev S50000x96 : Shape := ⟨2, ![50000, 96]⟩
abbrev S_ : Shape := ⟨0, ![]⟩
abbrev S800000x96 : Shape := ⟨2, ![800000, 96]⟩
abbrev S800000x64 : Shape := ⟨2, ![800000, 64]⟩
abbrev S64x128 : Shape := ⟨2, ![64, 128]⟩
abbrev S32x128 : Shape := ⟨2, ![32, 128]⟩
abbrev S1x128 : Shape := ⟨2, ![1, 128]⟩
abbrev S1x64 : Shape := ⟨2, ![1, 64]⟩
abbrev S8000x96 : Shape := ⟨2, ![8000, 96]⟩
abbrev S8000x64 : Shape := ⟨2, ![8000, 64]⟩
abbrev S8000x32 : Shape := ⟨2, ![8000, 32]⟩
abbrev S8000x128 : Shape := ⟨2, ![8000, 128]⟩
abbrev S5000x64 : Shape := ⟨2, ![5000, 64]⟩
abbrev S5000x32 : Shape := ⟨2, ![5000, 32]⟩
abbrev S5000x128 : Shape := ⟨2, ![5000, 128]⟩

abbrev nBuf : Space → Nat
  | .hbm => 63
  | .vmem => 27
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S50000x32, .f32⟩
  | .hbm, ⟨3, _⟩ => ⟨S192x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S96x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S800000x2, .i32⟩
  | .hbm, ⟨14, _⟩ => ⟨S800000x1, .i32⟩
  | .hbm, ⟨15, _⟩ => ⟨S800000, .i32⟩
  | .hbm, ⟨16, _⟩ => ⟨S800000x1, .i32⟩
  | .hbm, ⟨17, _⟩ => ⟨S800000, .i32⟩
  | .hbm, ⟨18, _⟩ => ⟨S50000x64, .bf16⟩
  | .hbm, ⟨19, _⟩ => ⟨S800000x32, .bf16⟩
  | .hbm, ⟨20, _⟩ => ⟨S50000x32, .bf16⟩
  | .hbm, ⟨21, _⟩ => ⟨S50000x96, .bf16⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x96, .bf16⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .bf16⟩
  | .hbm, ⟨40, _⟩ => ⟨S192x128, .bf16⟩
  | .hbm, ⟨41, _⟩ => ⟨S64x128, .bf16⟩
  | .hbm, ⟨42, _⟩ => ⟨S32x128, .bf16⟩
  | .hbm, ⟨43, _⟩ => ⟨S96x128, .bf16⟩
  | .hbm, ⟨44, _⟩ => ⟨S64x128, .bf16⟩
  | .hbm, ⟨45, _⟩ => ⟨S32x128, .bf16⟩
  | .hbm, ⟨46, _⟩ => ⟨S128x128, .bf16⟩
  | .hbm, ⟨47, _⟩ => ⟨S128x64, .bf16⟩
  | .hbm, ⟨48, _⟩ => ⟨S1x128, .f32⟩
  | .hbm, ⟨49, _⟩ => ⟨S1x128, .f32⟩
  | .hbm, ⟨50, _⟩ => ⟨S1x64, .f32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S96x128, .bf16⟩
  | .hbm, ⟨57, _⟩ => ⟨S64x128, .bf16⟩
  | .hbm, ⟨58, _⟩ => ⟨S32x128, .bf16⟩
  | .hbm, ⟨59, _⟩ => ⟨S128x64, .bf16⟩
  | .hbm, ⟨60, _⟩ => ⟨S1x128, .f32⟩
  | .hbm, ⟨61, _⟩ => ⟨S1x64, .f32⟩
  | .hbm, ⟨62, _⟩ => ⟨S50000x64, .f32⟩
  | .local _ .vmem, ⟨0, _⟩ => ⟨S8000x96, .bf16⟩
  | .local _ .vmem, ⟨1, _⟩ => ⟨S8000x96, .bf16⟩
  | .local _ .vmem, ⟨2, _⟩ => ⟨S8000x64, .bf16⟩
  | .local _ .vmem, ⟨3, _⟩ => ⟨S8000x64, .bf16⟩
  | .local _ .vmem, ⟨4, _⟩ => ⟨S8000x32, .bf16⟩
  | .local _ .vmem, ⟨5, _⟩ => ⟨S8000x32, .bf16⟩
  | .local _ .vmem, ⟨6, _⟩ => ⟨S96x128, .bf16⟩
  | .local _ .vmem, ⟨7, _⟩ => ⟨S64x128, .bf16⟩
  | .local _ .vmem, ⟨8, _⟩ => ⟨S32x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x64, .bf16⟩
  | .local _ .vmem, ⟨13, _⟩ => ⟨S1x64, .f32⟩
  | .local _ .vmem, ⟨14, _⟩ => ⟨S8000x64, .f32⟩
  | .local _ .vmem, ⟨15, _⟩ => ⟨S8000x64, .f32⟩
  | .local _ .vmem, ⟨16, _⟩ => ⟨S5000x64, .f32⟩
  | .local _ .vmem, ⟨17, _⟩ => ⟨S5000x64, .f32⟩
  | .local _ .vmem, ⟨18, _⟩ => ⟨S5000x32, .f32⟩
  | .local _ .vmem, ⟨19, _⟩ => ⟨S5000x32, .f32⟩
  | .local _ .vmem, ⟨20, _⟩ => ⟨S64x128, .bf16⟩
  | .local _ .vmem, ⟨21, _⟩ => ⟨S32x128, .bf16⟩
  | .local _ .vmem, ⟨22, _⟩ => ⟨S1x128, .f32⟩
  | .local _ .vmem, ⟨23, _⟩ => ⟨S128x64, .bf16⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bitsLt_bf16_f32 : FTy.bits .bf16 < FTy.bits .f32
  concatenates_S50000x64_S50000x32_S50000x96_d1 : Shape.Concatenates [S50000x64, S50000x32] S50000x96 1
  bcast_S_S800000 : S_.BroadcastsInDim S800000 (![] : Fin 0 → Fin S800000.rank)
  bcast_S800000_S800000x1_0 : S800000.BroadcastsInDim S800000x1 (![0] : Fin 1 → Fin S800000x1.rank)
  slices_S192x128_S64x128_0_0 : S192x128.Slices ![0, 0] S64x128
  slices_S192x128_S32x128_160_0 : S192x128.Slices ![160, 0] S32x128
  concatenates_S64x128_S32x128_S96x128_d0 : Shape.Concatenates [S64x128, S32x128] S96x128 0
  slices_S192x128_S64x128_64_0 : S192x128.Slices ![64, 0] S64x128
  slices_S192x128_S32x128_128_0 : S192x128.Slices ![128, 0] S32x128
  shapeCasts_S128_S1x128 : S128.ShapeCasts S1x128
  shapeCasts_S64_S1x64 : S64.ShapeCasts S1x64
  inb_S8000x96_S8000x96_0_0 : ∀ a, (![0, 0] : Fin 2 → Nat) a + S8000x96.size a ≤ S8000x96.size a
  h_S8000x96 : 0 < S8000x96.numel
  shapeCasts_S8000x96_S8000x96 : S8000x96.ShapeCasts S8000x96
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  slices_S96x128_S64x128_0_0 : S96x128.Slices ![0, 0] S64x128
  slices_S96x128_S32x128_64_0 : S96x128.Slices ![64, 0] S32x128
  inb_S5000x64_S5000x64_0_0 : ∀ a, (![0, 0] : Fin 2 → Nat) a + S5000x64.size a ≤ S5000x64.size a
  h_S5000x64 : 0 < S5000x64.numel
  inb_S5000x32_S5000x32_0_0 : ∀ a, (![0, 0] : Fin 2 → Nat) a + S5000x32.size a ≤ S5000x32.size a
  h_S5000x32 : 0 < S5000x32.numel
  broadcasts_S1x128_S5000x128 : S1x128.Broadcasts S5000x128
  broadcasts_S1x64_S5000x64 : S1x64.Broadcasts S5000x64
  gather_S50000x96_S800000x1_S800000x96_1_0_n_n_0_1_196_wf : GatherDims.WF S50000x96 S800000x1 S800000x96 [1] [0] [] [0] [] 1 ![1, 96]
  gather_S50000x64_S800000x1_S800000x64_1_0_n_n_0_1_164_wf : GatherDims.WF S50000x64 S800000x1 S800000x64 [1] [0] [] [0] [] 1 ![1, 64]
  dot_S8000x96_S96x128_S8000x128_1_0_0_1_n_n_wf : DotDims.WF S8000x96 S96x128 S8000x128 [1] [0] [0] [1] [] []
  dot_S8000x64_S64x128_S8000x128_1_0_0_1_n_n_wf : DotDims.WF S8000x64 S64x128 S8000x128 [1] [0] [0] [1] [] []
  dot_S8000x32_S32x128_S8000x128_1_0_0_1_n_n_wf : DotDims.WF S8000x32 S32x128 S8000x128 [1] [0] [0] [1] [] []
  dot_S8000x128_S128x128_S8000x128_1_0_0_1_n_n_wf : DotDims.WF S8000x128 S128x128 S8000x128 [1] [0] [0] [1] [] []
  dot_S8000x128_S128x64_S8000x64_1_0_0_1_n_n_wf : DotDims.WF S8000x128 S128x64 S8000x64 [1] [0] [0] [1] [] []
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x32_S32x128_S5000x128_1_0_0_1_n_n_wf : DotDims.WF S5000x32 S32x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x96.size a ≤ S800000x96.size a
  hwx0_0 : ∀ i : grid0.Coords, EltTy.bits .bf16 = 32 ∨ (Rect.block (s := S800000x96) S8000x96.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S800000x32.size a
  hwx0_2 : ∀ i : grid0.Coords, EltTy.bits .bf16 = 32 ∨ (Rect.block (s := S800000x32) S8000x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .bf16 = 32 ∨ (Rect.block (s := S96x128) S96x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .bf16 = 32 ∨ (Rect.block (s := S32x128) S32x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .bf16 = 32 ∨ (Rect.block (s := S128x64) S128x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x64.size a ≤ S800000x64.size a
  hwx0_11 : ∀ i : grid0.Coords, EltTy.bits .f32 = 32 ∨ (Rect.block (s := S800000x64) S8000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .bf16 = 32 ∨ (Rect.block (s := S64x128) S64x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .bf16 = 32 ∨ (Rect.block (s := S32x128) S32x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x96_S96x128_S8000x128_1_0_0_1_n_n : DotDims S8000x96 S96x128 S8000x128 where
  lhsContracting := [1]
  rhsContracting := [0]
  lhsNonContracting := [0]
  rhsNonContracting := [1]
  lhsBatch := []
  rhsBatch := []
  wf := dot_S8000x96_S96x128_S8000x128_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v14) S8000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v33) S8000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x32 : Shape := ⟨2, ![800000, 32]⟩
abbrev S50000x32 : Shape := ⟨2, ![50000, 32]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S96x128 : Shape := ⟨2, ![96, 128]⟩
abbrev S800000x2 : Shape := ⟨2, ![800000, 2]⟩
abbrev S800000x1 : Shape := ⟨2, ![800000, 1]⟩
abbrev S800000 : Shape := ⟨1, ![800000]⟩
abbrev S_ : Shape := ⟨0, ![]⟩
abbrev S800000x64 : Shape := ⟨2, ![800000, 64]⟩
abbrev S800000x192 : Shape := ⟨2, ![800000, 192]⟩
abbrev S800000x128 : Shape := ⟨2, ![800000, 128]⟩
abbrev S1x128 : Shape := ⟨2, ![1, 128]⟩
abbrev S1x64 : Shape := ⟨2, ![1, 64]⟩
abbrev S50000x96 : Shape := ⟨2, ![50000, 96]⟩
abbrev S50000x128 : Shape := ⟨2, ![50000, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S50000x32, .f32⟩
  | .hbm, ⟨3, _⟩ => ⟨S192x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S96x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S800000x2, .i32⟩
  | .hbm, ⟨14, _⟩ => ⟨S800000x1, .i32⟩
  | .hbm, ⟨15, _⟩ => ⟨S800000, .i32⟩
  | .hbm, ⟨16, _⟩ => ⟨S800000x1, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x32, .f32⟩
  | .hbm, ⟨45, _⟩ => ⟨S800000x192, .f32⟩
  | .hbm, ⟨46, _⟩ => ⟨S800000x128, .f32⟩
  | .hbm, ⟨47, _⟩ => ⟨S1x128, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S1x128, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S800000x64, .f32⟩
  | .hbm, ⟨61, _⟩ => ⟨S1x64, .f32⟩
  | .hbm, ⟨62, _⟩ => ⟨S800000x64, .f32⟩
  | .hbm, ⟨63, _⟩ => ⟨S800000x64, .f32⟩
  | .hbm, ⟨64, _⟩ => ⟨S_, .f32⟩
  | .hbm, ⟨65, _⟩ => ⟨S50000x64, .f32⟩
  | .hbm, ⟨66, _⟩ => ⟨S800000x1, .i32⟩
  | .hbm, ⟨67, _⟩ => ⟨S50000x64, .f32⟩
  | .hbm, ⟨68, _⟩ => ⟨S50000x96, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call0_cst : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_cst : Ref sig .tc := ⟨.hbm, 57, rfl⟩
abbrev main_call1_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call2_cst : Ref sig .tc := ⟨.hbm, 73, rfl⟩
abbrev main_call2_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x32_S800000x192_d1 : Shape.Concatenates [S800000x64, S800000x64, S800000x32, S800000x32] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x32_S50000x96_d1 : Shape.Concatenates [S50000x64, S50000x32] S50000x96 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  gather_S50000x32_S800000x1_S800000x32_1_0_n_n_0_1_132_wf : GatherDims.WF S50000x32 S800000x1 S800000x32 [1] [0] [] [0] [] 1 ![1, 32]
  dot_S800000x192_S192x128_S800000x128_1_0_0_1_n_n_wf : DotDims.WF S800000x192 S192x128 S800000x128 [1] [0] [0] [1] [] []
  dot_S800000x128_S128x128_S800000x128_1_0_0_1_n_n_wf : DotDims.WF S800000x128 S128x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x96_S96x128_S50000x128_1_0_0_1_n_n_wf : DotDims.WF S50000x96 S96x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The run of the kernel program with its two results named.

  The program is a stretch of host operations, a first pipelined region, a second stretch of host operations and a
  second pipelined region. At every boundary the contents of the unscoped buffers are a known fold from the launch
  memory; the last of these folds is `Gen.W4`. Every weakly fair execution terminates, and in every final state the
  two result buffers hold what that fold gives them, while the fourteen argument arrays hold what they held at launch.
  The two result buffers are then read off the fold: the updated nodes are the second region's output window, and the
  aggregated messages are the scatter-add the second stretch of host operations performs on the first region's
  output window.
-/
import proofs.«160387_j82592221102879_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the launch theorem are found by unifying its conclusion with this one, which takes
-- unfolding plain definitions in a metavariable's type
set_option backward.isDefEq.respectTransparency.types false in
/-- From any memory with zero counters, every weakly fair execution of the program terminates without fault, and
    every final state has the two result buffers at the last fold's contents and the argument arrays as launched:
    the final thread state says every unscoped buffer holds the last fold's contents, and the result buffers and
    the arguments are unscoped. -/
theorem run : θ_run defs (onTc (τ := τ) (main (F := F))) ⟨m, fun _ => 0, ρ⟩ (fun r => ∀ c : Dev nD,
      r.2.mem ((c.tc : Thread nD τ).loc main_v43) = Gen.W4 m ρ c (Proc.devRef .tc main_v43)
      ∧ r.2.mem ((c.tc : Thread nD τ).loc main_v36) = Gen.W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

/-- The updated nodes: the second region's output window (its array 7) after all its write-backs. -/
theorem W4_newNodes (c : Dev nD) :
    Gen.W4 m ρ c (Proc.devRef .tc main_v43) = (Gen.dat1 (Gen.V3 m ρ) c).arrAt 7 cfg1.N :=
  Gen.W4_arr m ρ c 7

/-- What the second stretch of host operations leaves in the aggregated-messages buffer, from any contents `V` at
    its start: the scatter-add, into an array of zeros, of the buffer the first region wrote, at the destination
    indices made a column. -/
theorem after1_v36 (V : Valuation τ sig (Elt F)) :
    StableHlo.after hostOps1 V (Proc.devRef .tc main_v36)
      = Host.scatterAdd scatter_S50000x64_S800000x1_S800000x64_1_0_0_1
          (broadcastInDim S50000x64 ![] bcast_S_S50000x64 (constant (F := F) S_ .f32 0x00000000#32))
          (broadcastInDim S800000x1 ![0] bcast_S800000_S800000x1_0 (V (Proc.devRef .tc main_v3)))
          (V (Proc.devRef .tc main_v33)) := by
  after_results

/-- The aggregated messages: the second region does not touch their buffer, the second stretch of host operations
    writes it as the scatter-add above, whose updates are the first region's output window (its array 11) after all
    its write-backs and whose indices are the destination column as the first stretch of host operations left it
    (the first region does not touch it). -/
theorem W4_aggregated (c : Dev nD) :
    Gen.W4 m ρ c (Proc.devRef .tc main_v36)
      = Host.scatterAdd scatter_S50000x64_S800000x1_S800000x64_1_0_0_1
          (broadcastInDim S50000x64 ![] bcast_S_S50000x64 (constant (F := F) S_ .f32 0x00000000#32))
          (broadcastInDim S800000x1 ![0] bcast_S800000_S800000x1_0 (Gen.W1 m ρ c (Proc.devRef .tc main_v3)))
          ((Gen.dat0 (Gen.V1 m ρ) c).arrAt 11 cfg0.N) :=
  (Gen.W4_of_ne m ρ c main_v36 (by decide)).trans <| (after1_v36 (Gen.W2 m ρ c)).trans <| by
    rw [Gen.W2_of_ne m ρ c main_v3 (by decide),
      show Gen.W2 m ρ c (Proc.devRef .tc main_v33) = (Gen.dat0 (Gen.V1 m ρ) c).arrAt 11 cfg0.N from Gen.W2_arr m ρ c 11]

end Cert.KernelIdeal.KRun

end
-- ==== Proof.Spec.lean ====
/-
  The message-passing layer as plain formulas on the extended reals.

  An edge e has a source node s e and a destination node d e. Its message is a three-layer perceptron applied to the
  row (node[s e], node[d e], edge[e], spacetime[s e]) of 64 + 64 + 32 + 32 = 192 numbers; the first layer's product of
  that row with the 192 × 128 weight matrix is written as the sum of the four partial products, one per piece of the
  row, each against the matching block of rows of the matrix (rows 0–63, 64–127, 128–159, 160–191). A node n is
  updated by a two-layer perceptron applied to the row (node[n], spacetime[n]) of 64 + 32 = 96 numbers, the first
  layer again as the sum of the two partial products (rows 0–63 and 64–95 of the 96 × 128 matrix), added to node[n].
  A rectifier is max(·, 0). Nothing here needs the numbers to be finite.
-/
import Idealize.ShloMosaic.PureOps.Ideal
import Idealize.ShloMosaic.Lib.ValueIdx

noncomputable section

open scoped BigOperators

namespace Cert.Spec

open Idealize.ShloMosaic Idealize.ShloMosaic.ValueIdx

/-- Row `off + k` of a matrix with `b` rows, for `k` below `a` and `off + a ≤ b`. -/
def shift {a : Nat} (b off : Nat) (h : off + a ≤ b) (k : Fin a) : Fin b := ⟨off + k.val, by have := k.isLt; omega⟩

@[simp] theorem shift_val {a : Nat} (b off : Nat) (h : off + a ≤ b) (k : Fin a) : (shift b off h k).val = off + k.val := rfl

section Message

variable (s d : Fin 800000 → Fin 50000)
variable (A0 : FVec Ideal ⟨2, ![50000, 64]⟩ .f32) (A1 : FVec Ideal ⟨2, ![800000, 32]⟩ .f32) (A2 : FVec Ideal ⟨2, ![50000, 32]⟩ .f32)
  (A3 : FVec Ideal ⟨2, ![192, 128]⟩ .f32) (A4 : FVec Ideal ⟨1, ![128]⟩ .f32) (A5 : FVec Ideal ⟨2, ![128, 128]⟩ .f32)
  (A6 : FVec Ideal ⟨1, ![128]⟩ .f32) (A7 : FVec Ideal ⟨2, ![128, 64]⟩ .f32) (A8 : FVec Ideal ⟨1, ![64]⟩ .f32)

/-- First hidden layer of edge `e`, unit `j`: the four partial products, the bias, the rectifier. -/
def hid1 (e : Fin 800000) (j : Fin 128) : EReal :=
  max (((((∑ k : Fin 64, A0 (ix2 (s e) k) * A3 (ix2 (shift 192 0 (by omega) k) j))
      + ∑ k : Fin 64, A0 (ix2 (d e) k) * A3 (ix2 (shift 192 64 (by omega) k) j))
      + ∑ k : Fin 32, A1 (ix2 e k) * A3 (ix2 (shift 192 128 (by omega) k) j))
      + ∑ k : Fin 32, A2 (ix2 (s e) k) * A3 (ix2 (shift 192 160 (by omega) k) j))
      + A4 (ix1 j)) 0

/-- Second hidden layer of edge `e`, unit `j`. -/
def hid2 (e : Fin 800000) (j : Fin 128) : EReal :=
  max ((∑ k : Fin 128, hid1 s d A0 A1 A2 A3 A4 e k * A5 (ix2 k j)) + A6 (ix1 j)) 0

/-- The message of edge `e`, entry `c`. -/
def msg (e : Fin 800000) (c : Fin 64) : EReal :=
  (∑ k : Fin 128, hid2 s d A0 A1 A2 A3 A4 A5 A6 e k * A7 (ix2 k c)) + A8 (ix1 c)

/-- All messages as one array. -/
def messages : FVec Ideal ⟨2, ![800000, 64]⟩ .f32 :=
  fun i => msg s d A0 A1 A2 A3 A4 A5 A6 A7 A8 (i 0) (i 1)

end Message

section Update

variable (A0 : FVec Ideal ⟨2, ![50000, 64]⟩ .f32) (A2 : FVec Ideal ⟨2, ![50000, 32]⟩ .f32)
  (A9 : FVec Ideal ⟨2, ![96, 128]⟩ .f32) (A10 : FVec Ideal ⟨1, ![128]⟩ .f32) (A11 : FVec Ideal ⟨2, ![128, 64]⟩ .f32)
  (A12 : FVec Ideal ⟨1, ![64]⟩ .f32)

/-- Hidden layer of node `n`, unit `j`: the two partial products, the bias, the rectifier. -/
def uhid (n : Fin 50000) (j : Fin 128) : EReal :=
  max (((∑ k : Fin 64, A0 (ix2 n k) * A9 (ix2 (shift 96 0 (by omega) k) j))
      + ∑ k : Fin 32, A2 (ix2 n k) * A9 (ix2 (shift 96 64 (by omega) k) j))
      + A10 (ix1 j)) 0

/-- The updated node `n`, entry `c`: the node's own entry plus the second layer. -/
def upd (n : Fin 50000) (c : Fin 64) : EReal :=
  A0 (ix2 n c) + ((∑ k : Fin 128, uhid A0 A2 A9 A10 n k * A11 (ix2 k c)) + A12 (ix1 c))

/-- All updated nodes as one array. -/
def newNodes : FVec Ideal ⟨2, ![50000, 64]⟩ .f32 :=
  fun i => upd A0 A2 A9 A10 A11 A12 (i 0) (i 1)

end Update

end Cert.Spec

end
-- ==== Proof.LibGatherRows.lean ====
/-
  The host's gather, for row gathers, read at an index.

  A ROW GATHER has start indices of shape [E, 1] holding one row number each; that number names the operand's
  axis 0, which is collapsed; the operand's remaining axes (none, or one axis of C columns) are taken whole. Result
  row a is then the operand's row (rowOf G a): the start index G (a, 0) read signed and clamped into [0, N - 1], as
  the gather clamps every start index so that the slice fits. So

    result (a)    = operand (rowOf G a)         (no columns)
    result (a, c) = operand (rowOf G a, c)      (C columns)

  for any sizes N (operand rows, positive), E (result rows), C (columns) and any index width. The lemmas are stated
  for the dimension numbers as a record built from any proof of their well-formedness (`dims1 wf`, `dims2 wf`); a
  program's own record of the same lists is that record, so they apply to it by unification.
-/
import Idealize.ShloMosaic.Lib.ValueIdx

noncomputable section

namespace Cert.GatherRows

open Idealize.ShloMosaic Idealize.ShloMosaic.ValueIdx

variable {α : Type} {N E C w : Nat}

/-- The operand row a start index names: read signed, clamped into [0, N - 1]. -/
def rowOf (hN : 0 < N) (G : IVec ⟨2, ![E, 1]⟩ w) (a : Fin E) : Fin N :=
  ⟨min (G (ix2 a 0)).toInt.toNat (N - 1), by omega⟩

/-- A start index that reads as a row number in range names that row. -/
theorem rowOf_eq (hN : 0 < N) (G : IVec ⟨2, ![E, 1]⟩ w) (a : Fin E) (r : Fin N) (h : (G (ix2 a 0)).toInt = (r.val : ℤ)) :
    rowOf hN G a = r := by
  apply Fin.ext
  have := r.isLt
  show min (G (ix2 a 0)).toInt.toNat (N - 1) = r.val
  rw [h]
  simp only [Int.toNat_natCast]
  omega

/-- The 1-D gather's dimension numbers, over any sizes. -/
abbrev dims1 (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row gather's dimension numbers, over any sizes. -/
abbrev dims2 (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-- THE 1-D GATHER READ AT a: the operand at the row the start index names. -/
theorem gather1_apply (hN : 0 < N) (wf) (x : (⟨1, ![N]⟩ : Shape).Idx → α) (G : IVec ⟨2, ![E, 1]⟩ w) (a : Fin E) :
    Host.gather (dims1 (N := N) (E := E) wf) x G (ix1 a) = x (ix1 (rowOf hN G a)) := by
  unfold Host.gather
  congr 1
  funext b
  obtain rfl : b = 0 := Subsingleton.elim _ _
  refine Fin.ext ?_
  show (dims1 (N := N) (E := E) wf).start (ix1 a) G 0 + (dims1 (N := N) (E := E) wf).batchCoord (ix1 a) 0
      + (dims1 (N := N) (E := E) wf).offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims1 (N := N) (E := E) wf).startIndexMap from List.mem_singleton.mpr rfl)]
  have hsi : (dims1 (N := N) (E := E) wf).siIdx (ix1 a) ⟨List.idxOf (0 : Fin 1) (dims1 (N := N) (E := E) wf).startIndexMap,
      List.idxOf_lt_length_iff.2 (List.mem_singleton.mpr rfl)⟩ = ix2 a 0 := by
    funext c; refine Fin.ext ?_
    match c with
    | ⟨0, _⟩ => rfl
    | ⟨1, _⟩ => rfl
  rw [hsi]
  rfl

/-- THE ROW GATHER READ AT (a, c): the operand at the row the start index names, same column. -/
theorem gather2_apply (hN : 0 < N) (wf) (x : (⟨2, ![N, C]⟩ : Shape).Idx → α) (G : IVec ⟨2, ![E, 1]⟩ w) (a : Fin E) (c : Fin C) :
    Host.gather (dims2 (N := N) (E := E) (C := C) wf) x G (ix2 a c) = x (ix2 (rowOf hN G a) c) := by
  unfold Host.gather
  congr 1
  funext b
  refine Fin.ext ?_
  match b with
  | ⟨0, _⟩ =>
    -- the collapsed row axis: the clamped start index, no batching coordinate, no offset
    show (dims2 (N := N) (E := E) (C := C) wf).start (ix2 a c) G 0
        + (dims2 (N := N) (E := E) (C := C) wf).batchCoord (ix2 a c) 0
        + (dims2 (N := N) (E := E) (C := C) wf).offCoord (ix2 a c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 (N := N) (E := E) (C := C) wf).startIndexMap from List.mem_singleton.mpr rfl)]
    have hsi : (dims2 (N := N) (E := E) (C := C) wf).siIdx (ix2 a c)
        ⟨List.idxOf (0 : Fin 2) (dims2 (N := N) (E := E) (C := C) wf).startIndexMap,
          List.idxOf_lt_length_iff.2 (List.mem_singleton.mpr rfl)⟩ = ix2 a 0 := by
      funext e; refine Fin.ext ?_
      match e with
      | ⟨0, _⟩ => rfl
      | ⟨1, _⟩ => rfl
    rw [hsi]
    rfl
  | ⟨1, _⟩ =>
    -- the column axis, taken whole: start 0, no batching coordinate, the result's column as offset
    show (dims2 (N := N) (E := E) (C := C) wf).start (ix2 a c) G 1
        + (dims2 (N := N) (E := E) (C := C) wf).batchCoord (ix2 a c) 1
        + (dims2 (N := N) (E := E) (C := C) wf).offCoord (ix2 a c) 1 = c.val
    rw [GatherDims.batchCoord_eq_zero _ _ _ List.not_mem_nil]
    have hst : (dims2 (N := N) (E := E) (C := C) wf).start (ix2 a c) G 1 = 0 := by
      unfold GatherDims.start
      rw [dif_neg (by simp)]
    have hk : (1 : Fin 2) ∈ (dims2 (N := N) (E := E) (C := C) wf).sKept :=
      (GatherDims.mem_sKept _ _).mpr ⟨by simp, List.not_mem_nil⟩
    have hoff : (dims2 (N := N) (E := E) (C := C) wf).offCoord (ix2 a c) 1 = c.val := by
      unfold GatherDims.offCoord
      rw [dif_pos hk]
      rfl
    rw [hst, hoff]
    simp

end Cert.GatherRows

end
-- ==== Proof.LibConcatAt.lean ====
/-
  Matrices with the same number of rows laid side by side, read at an index known by its coordinates' values.

  Two pieces `x₁ : [n, a]`, `x₂ : [n, b]` joined along the columns into `[n, c]`: at an index whose row is `r` and
  whose column is `k < a` the joined array is `x₁ (r, k)`; at column `a + k` with `k < b` it is `x₂ (r, k)`.
  Three pieces `[n, a0]`, `[n, a1]`, `[n, a2]`: piece `p` starts at the sum of the extents before it, so columns
  `k`, `a0 + k`, `a0 + a1 + k` read pieces 0, 1, 2 at `(r, k)`.
  The index is ANY index of the joined shape with its two coordinates given as equations between naturals: the form in
  which a contraction's operand index arrives.
-/
import Idealize.ShloMosaic.Lib.ValueIdx
import Idealize.ShloMosaic.Lib.Pipeline.Value

noncomputable section

namespace Cert.Proof.ConcatAt

open Idealize.ShloMosaic Idealize.ShloMosaic.ValueIdx

variable {α : Type}

/-- Two pieces, a column of the left one. -/
theorem pair_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin a) (hr : (j 0).val = r.val) (hk : (j 1).val = k.val) :
    concatenate ⟨2, ![n, c]⟩ (1 : Fin 2) [⟨⟨2, ![n, a]⟩, x₁⟩, ⟨⟨2, ![n, b]⟩, x₂⟩] h j = x₁ (ix2 r k) :=
  concatenate_pair_apply_left (1 : Fin 2) x₁ x₂ h j rfl (ix2 r k) (fun bx => by
    match bx with
    | ⟨0, _⟩ => exact hr.symm
    | ⟨1, _⟩ => exact hk.symm)

/-- Two pieces, a column of the right one. -/
theorem pair_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin b) (hr : (j 0).val = r.val) (hk : (j 1).val = a + k.val) :
    concatenate ⟨2, ![n, c]⟩ (1 : Fin 2) [⟨⟨2, ![n, a]⟩, x₁⟩, ⟨⟨2, ![n, b]⟩, x₂⟩] h j = x₂ (ix2 r k) :=
  concatenate_pair_apply_right (1 : Fin 2) x₁ x₂ h j rfl rfl (ix2 r k) (fun bx hb => by
    match bx with
    | ⟨0, _⟩ => exact hr.symm
    | ⟨1, _⟩ => exact absurd rfl hb)
    (by show k.val + a = (j 1).val; omega)

/-- Three pieces, a column of piece 0. -/
theorem three_0 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a0) (hr : (j 0).val = r.val) (hk : (j 1).val = k.val) :
    concatenate ⟨2, ![n, c]⟩ (1 : Fin 2) [⟨⟨2, ![n, a0]⟩, x0⟩, ⟨⟨2, ![n, a1]⟩, x1⟩, ⟨⟨2, ![n, a2]⟩, x2⟩] h j = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    0 (by simp) ⟨2, ![n, a0]⟩ x0 rfl rfl 0 (by simp) (ix2 r k) (fun bx hb => by
      match bx with
      | ⟨0, _⟩ => exact hr.symm
      | ⟨1, _⟩ => exact absurd rfl hb) (by show 0 + k.val = (j 1).val; omega)

/-- Three pieces, a column of piece 1. -/
theorem three_1 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a1) (hr : (j 0).val = r.val) (hk : (j 1).val = a0 + k.val) :
    concatenate ⟨2, ![n, c]⟩ (1 : Fin 2) [⟨⟨2, ![n, a0]⟩, x0⟩, ⟨⟨2, ![n, a1]⟩, x1⟩, ⟨⟨2, ![n, a2]⟩, x2⟩] h j = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    1 (by simp) ⟨2, ![n, a1]⟩ x1 rfl rfl a0 (by simp) (ix2 r k) (fun bx hb => by
      match bx with
      | ⟨0, _⟩ => exact hr.symm
      | ⟨1, _⟩ => exact absurd rfl hb) (by show a0 + k.val = (j 1).val; omega)

/-- Three pieces, a column of piece 2. -/
theorem three_2 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a2) (hr : (j 0).val = r.val) (hk : (j 1).val = a0 + a1 + k.val) :
    concatenate ⟨2, ![n, c]⟩ (1 : Fin 2) [⟨⟨2, ![n, a0]⟩, x0⟩, ⟨⟨2, ![n, a1]⟩, x1⟩, ⟨⟨2, ![n, a2]⟩, x2⟩] h j = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    2 (by simp) ⟨2, ![n, a2]⟩ x2 rfl rfl (a0 + a1) (by simp) (ix2 r k) (fun bx hb => by
      match bx with
      | ⟨0, _⟩ => exact hr.symm
      | ⟨1, _⟩ => exact absurd rfl hb) (by show a0 + a1 + k.val = (j 1).val; omega)

end Cert.Proof.ConcatAt

end
-- ==== Proof.LibHostRead.lean ====
/-
  Host operations of an array program read at an index of literal coordinates, on the extended reals.

  A reference written with array operations spreads a row statistic over the row, views a flat axis as two, cuts one
  plane out of a stack, and sums along the last axis. Each operation, applied at an index built from its coordinates,
  reads its operand at ONE index; the lemmas below name that index.

  * broadcasts: `[a,b] → [a,b,1]`, `[a,b,1] → [a,b,c]`, `[b,c] → [1,b,c]`, `[1,b,c] → [a,b,c]`, `[a] → [a,1]`,
    `[a,1] → [a,c]`, `[c] → [1,c]`, `[1,c] → [a,c]`;
  * reshapes: `[a,n] → [a,b,c]` and `[n] → [b,c]` with `n = b·c` (position `g·c + k` of the flat axis), and
    `[a,1,c] → [a,c]`;
  * a unit-thick slice `[a,b,c] → [a,1,c]` at offset `g` of the middle axis;
  * the sum along the last axis of a rank-3 and of a rank-2 array: the initial value plus `∑ k`;
  * a product of two matrices contracting ONE axis of extent `n`: `∑ k : Fin n` of the operands at index families
    the caller names once.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.HostRead

open Idealize.ShloMosaic Idealize.ShloMosaic.ValueIdx

variable {α : Type}

/-! ## Broadcasts -/

/-- `[a,b] → [a,b,1]`: at `(r, g, u)` the operand at `(r, g)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (r : Fin a) (g : Fin b) (u : Fin 1) :
    broadcastInDim ⟨3, ![a, b, 1]⟩ ![0, 1] h x (ix3 r g u) = x (ix2 r g) := by
  refine broadcastInDim_apply _ h x (ix3 r g u) (ix2 r g) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl

/-- `[a,b,1] → [a,b,c]`: at `(r, g, k)` the operand at `(r, g, 0)`. -/
theorem bcast_ab1_abc_apply {a b c : ℕ} (v : (⟨3, ![a, b, 1]⟩ : Shape).Idx → α)
    (h : (⟨3, ![a, b, 1]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 r g (0 : Fin 1)) := by
  refine broadcastInDim_apply _ h v (ix3 r g k) (ix3 r g (0 : Fin 1)) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl
  | ⟨2, _⟩ => rfl

/-- `[b,c] → [1,b,c]`: at `(u, g, k)` the operand at `(g, k)`. -/
theorem bcast_bc_1bc_apply {b c : ℕ} (x : (⟨2, ![b, c]⟩ : Shape).Idx → α)
    (h : (⟨2, ![b, c]⟩ : Shape).BroadcastsInDim ⟨3, ![1, b, c]⟩ (![1, 2] : Fin 2 → Fin (⟨3, ![1, b, c]⟩ : Shape).rank))
    (u : Fin 1) (g : Fin b) (k : Fin c) :
    broadcastInDim ⟨3, ![1, b, c]⟩ ![1, 2] h x (ix3 u g k) = x (ix2 g k) := by
  refine broadcastInDim_apply _ h x (ix3 u g k) (ix2 g k) fun ax => ?_
  match ax with
  | ⟨0, _⟩ =>
    show g.val = if b = 1 then 0 else g.val
    split
    · have := g.isLt; omega
    · rfl
  | ⟨1, _⟩ =>
    show k.val = if c = 1 then 0 else k.val
    split
    · have := k.isLt; omega
    · rfl

/-- `[1,b,c] → [a,b,c]`: at `(r, g, k)` the operand at `(0, g, k)`. -/
theorem bcast_1bc_abc_apply {a b c : ℕ} (v : (⟨3, ![1, b, c]⟩ : Shape).Idx → α)
    (h : (⟨3, ![1, b, c]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 (0 : Fin 1) g k) := by
  refine broadcastInDim_apply _ h v (ix3 r g k) (ix3 (0 : Fin 1) g k) fun ax => ?_
  match ax with
  | ⟨0, _⟩ => rfl
  | ⟨1, _⟩ =>
    show g.val = if b = 1 then 0 else g.val
    split
    · have := g.isLt; omega
    · rfl
  | ⟨2, _⟩ =>
    show k.val = if c = 1 then 0 else k.val
    split
    · have := k.isLt; omega
    · rfl

/-- `[a] → [a,1]`: at `(r, u)` the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- `[a,1] → [a,c]`: at `(r, k)` the operand at `(r, 0)`. -/
theorem bcast_a1_ac_apply {a c : ℕ} (v : (⟨2, ![a, 1]⟩ : Shape).Idx → α)
    (h : (⟨2, ![a, 1]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- `[c] → [1,c]`: at `(u, k)` the operand at `k`. -/
theorem bcast_c_1c_apply {c : ℕ} (x : (⟨1, ![c]⟩ : Shape).Idx → α)
    (h : (⟨1, ![c]⟩ : Shape).BroadcastsInDim ⟨2, ![1, c]⟩ (![1] : Fin 1 → Fin (⟨2, ![1, c]⟩ : Shape).rank))
    (u : Fin 1) (k : Fin c) :
    broadcastInDim ⟨2, ![1, c]⟩ ![1] h x (ix2 u k) = x (ix1 k) := by
  refine broadcastInDim_apply _ h x (ix2 u k) (ix1 k) fun ax => ?_
  match ax with
  | ⟨0, _⟩ =>
    show k.val = if c = 1 then 0 else k.val
    split
    · have := k.isLt; omega
    · rfl

/-- `[1,c] → [a,c]`: at `(r, k)` the operand at `(0, k)`. -/
theorem bcast_1c_ac_apply {a c : ℕ} (v : (⟨2, ![1, c]⟩ : Shape).Idx → α)
    (h : (⟨2, ![1, c]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if c = 1 then 0 else k.val
    split
    · have := k.isLt; omega
    · rfl

/-! ## Reshapes -/

/-- `[a,n] → [a,b,c]` with `n = b·c`: at `(r, g, k)` the operand at `(r, q)`, `q = g·c + k`. -/
theorem shapeCast_an_abc_apply {a n b c : ℕ} (hn : n = b * c) (x : (⟨2, ![a, n]⟩ : Shape).Idx → α)
    (h : (⟨2, ![a, n]⟩ : Shape).ShapeCasts ⟨3, ![a, b, c]⟩) (r : Fin a) (g : Fin b) (k : Fin c) (q : Fin n)
    (hq : q.val = g.val * c + k.val) :
    shapeCast ⟨3, ![a, b, c]⟩ x h (ix3 r g k) = x (ix2 r q) :=
  shapeCast_apply x h _ _ (by
    rw [Shape.rowMajor_val_two, Shape.rowMajor_val_three]
    show r.val * n + q.val = (r.val * b + g.val) * c + k.val
    rw [hq, hn, Nat.add_mul, Nat.mul_assoc, Nat.add_assoc])

/-- `[n] → [b,c]`: at `(g, k)` the operand at `q = g·c + k`. -/
theorem shapeCast_n_bc_apply {n b c : ℕ} (x : (⟨1, ![n]⟩ : Shape).Idx → α)
    (h : (⟨1, ![n]⟩ : Shape).ShapeCasts ⟨2, ![b, c]⟩) (g : Fin b) (k : Fin c) (q : Fin n)
    (hq : q.val = g.val * c + k.val) :
    shapeCast ⟨2, ![b, c]⟩ x h (ix2 g k) = x (ix1 q) :=
  shapeCast_apply x h _ _ (by
    rw [Shape.rowMajor_val_one, Shape.rowMajor_val_two]
    exact hq)

/-- `[a,1,c] → [a,c]`: at `(r, k)` the operand at `(r, 0, k)`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

/-! ## A unit-thick slice of the middle axis -/

/-- `[a,b,c] → [a,1,c]` at offset `o` of the middle axis: at `(r, u, k)` the operand at `(r, g, k)`, `g = o`. -/
theorem slice_mid_apply {a b c : ℕ} (o : ℕ) (x : (⟨3, ![a, b, c]⟩ : Shape).Idx → α)
    (h : (⟨3, ![a, b, c]⟩ : Shape).Slices ![0, o, 0] ⟨3, ![a, 1, c]⟩) (r : Fin a) (u : Fin 1) (k : Fin c) (g : Fin b)
    (hg : g.val = o) :
    extractStridedSlice ⟨3, ![a, 1, c]⟩ ![0, o, 0] x h (ix3 r u k) = x (ix3 r g k) := by
  refine extractStridedSlice_apply _ x h (ix3 r u k) (ix3 r g k) fun ax => ?_
  match ax with
  | ⟨0, _⟩ => show r.val = 0 + r.val; omega
  | ⟨1, _⟩ => show g.val = o + u.val; omega
  | ⟨2, _⟩ => show k.val = 0 + k.val; omega

/-! ## Sums along the last axis -/

/-- Over `(r, g)`, the rank-3 index whose last coordinate is `k` is `(r, g, k)`. -/
theorem lift_last3 {a b c : ℕ} (h : (⟨3, ![a, b, c]⟩ : Shape).Reduces [(2 : Fin 3)] ⟨2, ![a, b]⟩) (r : Fin a) (g : Fin b)
    (k : Fin c) : h.lift (ix2 r g) k = ix3 r g k := by
  funext d
  refine Fin.ext ?_
  match d with
  | ⟨0, _⟩ => rfl
  | ⟨1, _⟩ => rfl
  | ⟨2, _⟩ => rfl

/-- Over `r`, the rank-2 index whose last coordinate is `k` is `(r, k)`. -/
theorem lift_last2 {a c : ℕ} (h : (⟨2, ![a, c]⟩ : Shape).Reduces [(1 : Fin 2)] ⟨1, ![a]⟩) (r : Fin a) (k : Fin c) :
    h.lift (ix1 r) k = ix2 r k := by
  funext d
  refine Fin.ext ?_
  match d with
  | ⟨0, _⟩ => rfl
  | ⟨1, _⟩ => rfl

/-- The host sum of a rank-3 array along its last axis, at `(r, g)`: the initial value plus `∑ k, x (r, g, k)`. -/
theorem reduceAdd_last3_apply {a b c : ℕ} {φ : FTy} {u : Shape} (x : FVec Ideal ⟨3, ![a, b, c]⟩ φ) (init : u.Idx → Ideal φ)
    (h' : (⟨3, ![a, b, c]⟩ : Shape).ReducesTo [(2 : Fin 3)] ⟨2, ![a, b]⟩) (hu : 0 < u.numel)
    (h : (⟨3, ![a, b, c]⟩ : Shape).Reduces [(2 : Fin 3)] ⟨2, ![a, b]⟩) (r : Fin a) (g : Fin b) :
    Host.reduceAdd x init h' hu (ix2 r g) = init (Shape.Idx.first hu) + ∑ k : Fin c, x (ix3 r g k) := by
  refine (hostReduceAdd_apply x init h' hu (ix2 r g)).trans ?_
  refine (Ideal.hostReduceAdd_single h' h x _ (ix2 r g)).trans ?_
  exact congrArg (_ + ·) (Finset.sum_congr rfl fun k _ => congrArg x (lift_last3 h r g k))

/-- The host sum of a rank-2 array along its last axis, at `r`: the initial value plus `∑ k, x (r, k)`. -/
theorem reduceAdd_last2_apply {a c : ℕ} {φ : FTy} {u : Shape} (x : FVec Ideal ⟨2, ![a, c]⟩ φ) (init : u.Idx → Ideal φ)
    (h' : (⟨2, ![a, c]⟩ : Shape).ReducesTo [(1 : Fin 2)] ⟨1, ![a]⟩) (hu : 0 < u.numel)
    (h : (⟨2, ![a, c]⟩ : Shape).Reduces [(1 : Fin 2)] ⟨1, ![a]⟩) (r : Fin a) :
    Host.reduceAdd x init h' hu (ix1 r) = init (Shape.Idx.first hu) + ∑ k : Fin c, x (ix2 r k) := by
  refine (hostReduceAdd_apply x init h' hu (ix1 r)).trans ?_
  refine (Ideal.hostReduceAdd_single h' h x _ (ix1 r)).trans ?_
  exact congrArg (_ + ·) (Finset.sum_congr rfl fun k _ => congrArg x (lift_last2 h r k))

/-! ## A product contracting one axis -/

/-- A host matrix product whose dimension numbers contract ONE axis of extent `n`, at an output index `j`:
    `∑ k : Fin n, lhs (L k) * rhs (R k)`, where `L k`, `R k` are the operand indices the dimension numbers assign to
    `j` and the contraction coordinate `k`. -/
theorem dotGeneral_read {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    Host.dotGeneral D prec lhs rhs j = ∑ k : Fin n, lhs (L k) * rhs (R k) := by
  simp only [Host.dotGeneral]
  rw [Ideal.dotGeneral_apply, ← Equiv.sum_comp (contrEquiv1 D n hr hs).symm]
  exact Finset.sum_congr rfl fun k _ => by rw [hl k, hr' k]

end Cert.HostRead

end
-- ==== Proof.KernelEntry0.lean ====
/-
  The host operations that run before the first region, read at an index.

  Before the first region the program slices and flattens the two columns of the edge-index array, moves a negative
  index up by the node count, gathers the rows of (node, spacetime) at the source indices and the rows of node at the
  destination indices, cuts the first weight matrix into its four row blocks (stacking the first and the last), and
  reshapes the three bias vectors to one-row matrices. Each buffer the region reads is first stated as the operations'
  term over the launch arguments, then read at an index: a gathered row is the argument's row at the node the start
  index names; a block of the weight matrix is the matrix at the shifted row; a bias row is the bias vector.
  Conversions between float formats are the identity on the extended reals.
-/
import proofs.«160387_j82592221102879_2_alg».proof.Proof.Gen.KernelIdeal.Frame
import proofs.«160387_j82592221102879_2_alg».proof.Proof.Spec
import proofs.«160387_j82592221102879_2_alg».proof.Proof.LibGatherRows
import proofs.«160387_j82592221102879_2_alg».proof.Proof.LibConcatAt
import proofs.«160387_j82592221102879_2_alg».proof.Proof.LibHostRead
import Idealize.ShloMosaic.Lib.ValueLayout

noncomputable section

namespace Cert.KernelIdeal.Entry0

open Cert.KernelIdeal Cert.Spec Idealize.ShloMosaic Idealize.ShloMosaic.ValueIdx

variable (m : (ℓ : Loc nD τ sig) → Buf (Elt Ideal) ℓ) (ρ : Dev nD → PrngReg) (c : Dev nD)

/-! ## Row slices, row concatenations read at an index -/

section Generic
variable {α : Type}

/-- Rows `o … o + a - 1` of an `n × b` array: at `(k, j)` the operand at `(r, j)`, `r = o + k`. -/
theorem slice_rows_apply {a b n : ℕ} (o : ℕ) (x : (⟨2, ![n, b]⟩ : Shape).Idx → α)
    (h : (⟨2, ![n, b]⟩ : Shape).Slices ![o, 0] ⟨2, ![a, b]⟩) (k : Fin a) (j : Fin b) (r : Fin n) (hr : r.val = o + k.val) :
    extractStridedSlice ⟨2, ![a, b]⟩ ![o, 0] x h (ix2 k j) = x (ix2 r j) :=
  extractStridedSlice_apply _ x h _ _ (fun ax => by
    match ax with
    | ⟨0, _⟩ => exact hr
    | ⟨1, _⟩ => exact (Nat.zero_add _).symm)

/-- Column `q` of an `n × b` array as an `n × 1` array: at `(k, u)` the operand at `(k, q)`. -/
theorem slice_col_apply {b n : ℕ} (o : ℕ) (x : (⟨2, ![n, b]⟩ : Shape).Idx → α)
    (h : (⟨2, ![n, b]⟩ : Shape).Slices ![0, o] ⟨2, ![n, 1]⟩) (k : Fin n) (u : Fin 1) (q : Fin b) (hq : q.val = o) :
    extractStridedSlice ⟨2, ![n, 1]⟩ ![0, o] x h (ix2 k u) = x (ix2 k q) :=
  extractStridedSlice_apply _ x h _ _ (fun ax => by
    match ax with
    | ⟨0, _⟩ => exact (Nat.zero_add _).symm
    | ⟨1, _⟩ => show q.val = o + u.val; omega)

/-- Two pieces stacked by rows, a row of the upper one. -/
theorem concat_rows_left {a b n t : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![t, n]⟩ (0 : Fin 2))
    (j : (⟨2, ![t, n]⟩ : Shape).Idx) (r : Fin a) (k : Fin n) (hr : (j 0).val = r.val) (hk : (j 1).val = k.val) :
    concatenate ⟨2, ![t, n]⟩ (0 : Fin 2) [⟨⟨2, ![a, n]⟩, x₁⟩, ⟨⟨2, ![b, n]⟩, x₂⟩] h j = x₁ (ix2 r k) :=
  concatenate_pair_apply_left (0 : Fin 2) x₁ x₂ h j rfl (ix2 r k) (fun bx => by
    match bx with
    | ⟨0, _⟩ => exact hr.symm
    | ⟨1, _⟩ => exact hk.symm)

/-- Two pieces stacked by rows, a row of the lower one. -/
theorem concat_rows_right {a b n t : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![t, n]⟩ (0 : Fin 2))
    (j : (⟨2, ![t, n]⟩ : Shape).Idx) (r : Fin b) (k : Fin n) (hr : (j 0).val = a + r.val) (hk : (j 1).val = k.val) :
    concatenate ⟨2, ![t, n]⟩ (0 : Fin 2) [⟨⟨2, ![a, n]⟩, x₁⟩, ⟨⟨2, ![b, n]⟩, x₂⟩] h j = x₂ (ix2 r k) :=
  concatenate_pair_apply_right (0 : Fin 2) x₁ x₂ h j rfl rfl (ix2 r k) (fun bx hb => by
    match bx with
    | ⟨0, _⟩ => exact absurd rfl hb
    | ⟨1, _⟩ => exact hk.symm)
    (by show r.val + a = (j 0).val; omega)

end Generic

open Facts₀

/-! ## Each buffer the first region reads, as the host operations' term over the launch arguments

The conversions to the narrower float format are kept as printed where a further operation consumes them (they are the
identity on the extended reals, which the reads at an index below use); a buffer that is only a conversion is stated as
the argument itself. -/

theorem v26_eq : (Gen.V1 m ρ c main_v26 : S64x128.Idx → EReal)
    = extractStridedSlice S64x128 ![64, 0] (truncf (F := Ideal) .bf16 (m ((c.tc : Thread nD τ).loc main_arg3)) bitsLt_bf16_f32) slices_S192x128_S64x128_64_0 := by
  show StableHlo.after Gen.hostOps0 (Gen.W0 m ρ c) (Proc.devRef .tc main_v26) = _
  after_results <;> rfl

theorem v27_eq : (Gen.V1 m ρ c main_v27 : S32x128.Idx → EReal)
    = extractStridedSlice S32x128 ![128, 0] (truncf (F := Ideal) .bf16 (m ((c.tc : Thread nD τ).loc main_arg3)) bitsLt_bf16_f32) slices_S192x128_S32x128_128_0 := by
  show StableHlo.after Gen.hostOps0 (Gen.W0 m ρ c) (Proc.devRef .tc main_v27) = _
  after_results <;> rfl

theorem v25_eq : (Gen.V1 m ρ c main_v25 : S96x128.Idx → EReal)
    = concatenate S96x128 0
        [⟨S64x128, extractStridedSlice S64x128 ![0, 0] (truncf (F := Ideal) .bf16 (m ((c.tc : Thread nD τ).loc main_arg3)) bitsLt_bf16_f32) slices_S192x128_S64x128_0_0⟩,
         ⟨S32x128, extractStridedSlice S32x128 ![160, 0] (truncf (F := Ideal) .bf16 (m ((c.tc : Thread nD τ).loc main_arg3)) bitsLt_bf16_f32) slices_S192x128_S32x128_160_0⟩]
        concatenates_S64x128_S32x128_S96x128_d0 := by
  show StableHlo.after Gen.hostOps0 (Gen.W0 m ρ c) (Proc.devRef .tc main_v25) = _
  after_results <;> rfl

theorem v28_eq : (Gen.V1 m ρ c main_v28 : S128x128.Idx → EReal) = m ((c.tc : Thread nD τ).loc main_arg5) := by
  show StableHlo.after Gen.hostOps0 (Gen.W0 m ρ c) (Proc.devRef .tc main_v28) = _
  after_results <;> rfl

theorem v29_eq : (Gen.V1 m ρ c main_v29 : S128x64.Idx → EReal) = m ((c.tc : Thread nD τ).loc main_arg7) := by
  show StableHlo.after Gen.hostOps0 (Gen.W0 m ρ c) (Proc.devRef .tc main_v29) = _
  after_results <;> rfl

theorem v5_eq : (Gen.V1 m ρ c main_v5 : S800000x32.Idx → EReal) = m ((c.tc : Thread nD τ).loc main_arg1) := by
  show StableHlo.after Gen.hostOps0 (Gen.W0 m ρ c) (Proc.devRef .tc main_v5) = _
  after_results <;> rfl

theorem v30_eq : (Gen.V1 m ρ c main_v30 : S1x128.Idx → EReal) = shapeCast S1x128 (m ((c.tc : Thread nD τ).loc main_arg4)) shapeCasts_S128_S1x128 := by
  show StableHlo.after Gen.hostOps0 (Gen.W0 m ρ c) (Proc.devRef .tc main_v30) = _
  after_results <;> rfl

theorem v31_eq : (Gen.V1 m ρ c main_v31 : S1x128.Idx → EReal) = shapeCast S1x128 (m ((c.tc : Thread nD τ).loc main_arg6)) shapeCasts_S128_S1x128 := by
  show StableHlo.after Gen.hostOps0 (Gen.W0 m ρ c) (Proc.devRef .tc main_v31) = _
  after_results <;> rfl

theorem v32_eq : (Gen.V1 m ρ c main_v32 : S1x64.Idx → EReal) = shapeCast S1x64 (m ((c.tc : Thread nD τ).loc main_arg8)) shapeCasts_S64_S1x64 := by
  show StableHlo.after Gen.hostOps0 (Gen.W0 m ρ c) (Proc.devRef .tc main_v32) = _
  after_results <;> rfl

/-- The destination column of the edge-index array, flattened (the array the scatter after the region broadcasts). -/
theorem v3_eq : (Gen.W1 m ρ c (Proc.devRef .tc main_v3) : IVec S800000 32)
    = shapeCast S800000 (extractStridedSlice S800000x1 ![0, 1] (m ((c.tc : Thread nD τ).loc main_arg13)) slices_S800000x2_S800000x1_0_1) shapeCasts_S800000x1_S800000 := by
  show StableHlo.after Gen.hostOps0 (Gen.W0 m ρ c) (Proc.devRef .tc main_v3) = _
  after_results <;> rfl

/-- The source start indices: column 0, a negative entry moved up by the node count, as an 800000 × 1 array. -/
theorem v13_eq : (Gen.V1 m ρ c main_v13 : IVec S800000x1 32)
    = broadcastInDim S800000x1 ![0] bcast_S800000_S800000x1_0
        (select
          (cmpi .slt
            (shapeCast S800000 (extractStridedSlice S800000x1 ![0, 0] (m ((c.tc : Thread nD τ).loc main_arg13)) slices_S800000x2_S800000x1_0_0) shapeCasts_S800000x1_S800000)
            (broadcastInDim S800000 ![] bcast_S_S800000 (constantI S_ 32 0#32)))
          (addi
            (shapeCast S800000 (extractStridedSlice S800000x1 ![0, 0] (m ((c.tc : Thread nD τ).loc main_arg13)) slices_S800000x2_S800000x1_0_0) shapeCasts_S800000x1_S800000)
            (broadcastInDim S800000 ![] bcast_S_S800000 (constantI S_ 32 50000#32)))
          (shapeCast S800000 (extractStridedSlice S800000x1 ![0, 0] (m ((c.tc : Thread nD τ).loc main_arg13)) slices_S800000x2_S800000x1_0_0) shapeCasts_S800000x1_S800000)) := by
  show StableHlo.after Gen.hostOps0 (Gen.W0 m ρ c) (Proc.devRef .tc main_v13) = _
  after_results <;> rfl

/-- The destination start indices: column 1, likewise. -/
theorem v20_eq : (Gen.V1 m ρ c main_v20 : IVec S800000x1 32)
    = broadcastInDim S800000x1 ![0] bcast_S800000_S800000x1_0
        (select
          (cmpi .slt
            (shapeCast S800000 (extractStridedSlice S800000x1 ![0, 1] (m ((c.tc : Thread nD τ).loc main_arg13)) slices_S800000x2_S800000x1_0_1) shapeCasts_S800000x1_S800000)
            (broadcastInDim S800000 ![] bcast_S_S800000 (constantI S_ 32 0#32)))
          (addi
            (shapeCast S800000 (extractStridedSlice S800000x1 ![0, 1] (m ((c.tc : Thread nD τ).loc main_arg13)) slices_S800000x2_S800000x1_0_1) shapeCasts_S800000x1_S800000)
            (broadcastInDim S800000 ![] bcast_S_S800000 (constantI S_ 32 50000#32)))
          (shapeCast S800000 (extractStridedSlice S800000x1 ![0, 1] (m ((c.tc : Thread nD τ).loc main_arg13)) slices_S800000x2_S800000x1_0_1) shapeCasts_S800000x1_S800000)) := by
  show StableHlo.after Gen.hostOps0 (Gen.W0 m ρ c) (Proc.devRef .tc main_v20) = _
  after_results <;> rfl

/-- The gathered destination rows, over the destination start indices as the region finds them. -/
theorem v21_eq : (Gen.V1 m ρ c main_v21 : S800000x64.Idx → EReal)
    = Host.gather gather_S50000x64_S800000x1_S800000x64_1_0_n_n_0_1_164
        (truncf (F := Ideal) .bf16 (m ((c.tc : Thread nD τ).loc main_arg0)) bitsLt_bf16_f32) (Gen.V1 m ρ c main_v20) := by
  show StableHlo.after Gen.hostOps0 (Gen.W0 m ρ c) (Proc.devRef .tc main_v21)
    = Host.gather gather_S50000x64_S800000x1_S800000x64_1_0_n_n_0_1_164 _ (StableHlo.after Gen.hostOps0 (Gen.W0 m ρ c) (Proc.devRef .tc main_v20))
  after_results_simp <;> rfl

/-- The gathered source rows of (node, spacetime), over the source start indices as the region finds them. -/
theorem v14_eq : (Gen.V1 m ρ c main_v14 : S800000x96.Idx → EReal)
    = Host.gather gather_S50000x96_S800000x1_S800000x96_1_0_n_n_0_1_196
        (concatenate S50000x96 1
          [⟨S50000x64, truncf (F := Ideal) .bf16 (m ((c.tc : Thread nD τ).loc main_arg0)) bitsLt_bf16_f32⟩,
           ⟨S50000x32, truncf (F := Ideal) .bf16 (m ((c.tc : Thread nD τ).loc main_arg2)) bitsLt_bf16_f32⟩]
          concatenates_S50000x64_S50000x32_S50000x96_d1)
        (Gen.V1 m ρ c main_v13) := by
  show StableHlo.after Gen.hostOps0 (Gen.W0 m ρ c) (Proc.devRef .tc main_v14)
    = Host.gather gather_S50000x96_S800000x1_S800000x96_1_0_n_n_0_1_196 _ (StableHlo.after Gen.hostOps0 (Gen.W0 m ρ c) (Proc.devRef .tc main_v13))
  after_results_simp <;> rfl

/-! ## The same buffers read at an index -/

/-- The source node of edge `e`: the row its start index names. -/
abbrev sK (e : Fin 800000) : Fin 50000 :=
  Cert.GatherRows.rowOf (by decide : 0 < 50000) (Gen.V1 m ρ c main_v13 : IVec S800000x1 32) e
/-- The destination node of edge `e`. -/
abbrev dK (e : Fin 800000) : Fin 50000 :=
  Cert.GatherRows.rowOf (by decide : 0 < 50000) (Gen.V1 m ρ c main_v20 : IVec S800000x1 32) e

/-- Rows 64–127 of the first weight matrix. -/
theorem v26_at (k : Fin 64) (j : Fin 128) :
    Gen.V1 m ρ c main_v26 (ix2 k j) = m ((c.tc : Thread nD τ).loc main_arg3) (ix2 (shift 192 64 (by omega) k) j) :=
  (congrFun (v26_eq m ρ c) _).trans
    (slice_rows_apply 64 _ slices_S192x128_S64x128_64_0 k j (shift 192 64 (by omega) k) rfl)

/-- Rows 128–159 of the first weight matrix. -/
theorem v27_at (k : Fin 32) (j : Fin 128) :
    Gen.V1 m ρ c main_v27 (ix2 k j) = m ((c.tc : Thread nD τ).loc main_arg3) (ix2 (shift 192 128 (by omega) k) j) :=
  (congrFun (v27_eq m ρ c) _).trans
    (slice_rows_apply 128 _ slices_S192x128_S32x128_128_0 k j (shift 192 128 (by omega) k) rfl)

/-- Rows 0–63 of the first weight matrix, the upper piece of the stacked pair. -/
theorem v25_at_lo (k : Fin 64) (j : Fin 128) :
    Gen.V1 m ρ c main_v25 (ix2 (shift 96 0 (by omega) k) j) = m ((c.tc : Thread nD τ).loc main_arg3) (ix2 (shift 192 0 (by omega) k) j) :=
  (congrFun (v25_eq m ρ c) _).trans
    ((concat_rows_left _ _ concatenates_S64x128_S32x128_S96x128_d0 (ix2 (shift 96 0 (by omega) k) j) k j (Nat.zero_add _) rfl).trans
      (slice_rows_apply 0 _ slices_S192x128_S64x128_0_0 k j (shift 192 0 (by omega) k) rfl))

/-- Rows 160–191 of the first weight matrix, the lower piece of the stacked pair. -/
theorem v25_at_hi (k : Fin 32) (j : Fin 128) :
    Gen.V1 m ρ c main_v25 (ix2 (shift 96 64 (by omega) k) j) = m ((c.tc : Thread nD τ).loc main_arg3) (ix2 (shift 192 160 (by omega) k) j) :=
  (congrFun (v25_eq m ρ c) _).trans
    ((concat_rows_right _ _ concatenates_S64x128_S32x128_S96x128_d0 (ix2 (shift 96 64 (by omega) k) j) k j rfl rfl).trans
      (slice_rows_apply 160 _ slices_S192x128_S32x128_160_0 k j (shift 192 160 (by omega) k) rfl))

/-- The three bias rows. -/
theorem v30_at (j : Fin 128) : Gen.V1 m ρ c main_v30 (ix2 0 j) = m ((c.tc : Thread nD τ).loc main_arg4) (ix1 j) :=
  (congrFun (v30_eq m ρ c) _).trans (shapeCast_a_1a_apply _ shapeCasts_S128_S1x128 0 j)
theorem v31_at (j : Fin 128) : Gen.V1 m ρ c main_v31 (ix2 0 j) = m ((c.tc : Thread nD τ).loc main_arg6) (ix1 j) :=
  (congrFun (v31_eq m ρ c) _).trans (shapeCast_a_1a_apply _ shapeCasts_S128_S1x128 0 j)
theorem v32_at (j : Fin 64) : Gen.V1 m ρ c main_v32 (ix2 0 j) = m ((c.tc : Thread nD τ).loc main_arg8) (ix1 j) :=
  (congrFun (v32_eq m ρ c) _).trans (shapeCast_a_1a_apply _ shapeCasts_S64_S1x64 0 j)

/-- The gathered destination rows. -/
theorem v21_at (e : Fin 800000) (k : Fin 64) :
    Gen.V1 m ρ c main_v21 (ix2 e k) = m ((c.tc : Thread nD τ).loc main_arg0) (ix2 (dK m ρ c e) k) :=
  (congrFun (v21_eq m ρ c) _).trans
    (Cert.GatherRows.gather2_apply (by decide : 0 < 50000) gather_S50000x64_S800000x1_S800000x64_1_0_n_n_0_1_164_wf _
      (Gen.V1 m ρ c main_v20 : IVec S800000x1 32) e k)

/-- The gathered source rows, the node part. -/
theorem v14_at_node (e : Fin 800000) (k : Fin 64) :
    Gen.V1 m ρ c main_v14 (ix2 e (shift 96 0 (by omega) k)) = m ((c.tc : Thread nD τ).loc main_arg0) (ix2 (sK m ρ c e) k) :=
  (congrFun (v14_eq m ρ c) _).trans
    ((Cert.GatherRows.gather2_apply (by decide : 0 < 50000) gather_S50000x96_S800000x1_S800000x96_1_0_n_n_0_1_196_wf _
      (Gen.V1 m ρ c main_v13 : IVec S800000x1 32) e (shift 96 0 (by omega) k)).trans
      (Cert.Proof.ConcatAt.pair_left _ _ concatenates_S50000x64_S50000x32_S50000x96_d1
        (ix2 (sK m ρ c e) (shift 96 0 (by omega) k)) (sK m ρ c e) k rfl (Nat.zero_add _)))

/-- The gathered source rows, the spacetime part. -/
theorem v14_at_st (e : Fin 800000) (k : Fin 32) :
    Gen.V1 m ρ c main_v14 (ix2 e (shift 96 64 (by omega) k)) = m ((c.tc : Thread nD τ).loc main_arg2) (ix2 (sK m ρ c e) k) :=
  (congrFun (v14_eq m ρ c) _).trans
    ((Cert.GatherRows.gather2_apply (by decide : 0 < 50000) gather_S50000x96_S800000x1_S800000x96_1_0_n_n_0_1_196_wf _
      (Gen.V1 m ρ c main_v13 : IVec S800000x1 32) e (shift 96 64 (by omega) k)).trans
      (Cert.Proof.ConcatAt.pair_right _ _ concatenates_S50000x64_S50000x32_S50000x96_d1
        (ix2 (sK m ρ c e) (shift 96 64 (by omega) k)) (sK m ρ c e) k rfl rfl))

end Cert.KernelIdeal.Entry0
end
-- ==== Proof.KernelEntry1.lean ====
/-
  The second region's entry contents read back to the argument arrays, on the extended reals.

  Between the two regions the program slices the 96 × 128 weight matrix of the update's first layer into its rows
  0–63 and 64–95, views the two bias vectors as single rows, and changes the float format of the weights; on the
  extended reals a change of float format is the identity. No operation before the second region writes an argument
  array, so each of the second region's input arrays, read at an index, is an argument array read at one index.
-/
import proofs.«160387_j82592221102879_2_alg».proof.Proof.Gen.KernelIdeal.Frame
import proofs.«160387_j82592221102879_2_alg».proof.Proof.Spec
import Idealize.ShloMosaic.Lib.ValueLayout
import Idealize.ShloMosaic.Lib.Pipeline.Value

set_option maxRecDepth 16384

noncomputable section

namespace Cert.KernelIdeal.Entry1

open Cert.KernelIdeal Cert.KernelIdeal.Gen
open Idealize.ShloMosaic Idealize.ShloMosaic.TcCoe Idealize.ShloMosaic.Tactic
open Cert.Spec Idealize.ShloMosaic.ValueIdx

/-! ## A block of rows cut out of a matrix, read at an index -/

/-- Rows `o … o + a - 1` of a `b × n` matrix: at `(k, j)` the matrix at `(o + k, j)`. -/
theorem slice_rows_apply {α : Type} {a b n : ℕ} (o : ℕ) (ho : o + a ≤ b) (x : (⟨2, ![b, n]⟩ : Shape).Idx → α)
    (h : (⟨2, ![b, n]⟩ : Shape).Slices ![o, 0] ⟨2, ![a, n]⟩) (k : Fin a) (j : Fin n) :
    extractStridedSlice ⟨2, ![a, n]⟩ ![o, 0] x h (ix2 k j) = x (ix2 (shift b o ho k) j) := by
  refine extractStridedSlice_apply _ x h (ix2 k j) (ix2 (shift b o ho k) j) fun ax => ?_
  match ax with
  | ⟨0, _⟩ => show o + k.val = o + k.val; rfl
  | ⟨1, _⟩ => show j.val = 0 + j.val; omega

variable (m : (ℓ : Loc nD τ sig) → Buf (Elt Ideal) ℓ) (ρ : Dev nD → PrngReg)

/-- Argument 9 at the second stretch's start is as launched: the first region has no array at it and the first
    stretch of host operations does not write it. -/
theorem W2_main_arg9 (c : Dev nD) : Gen.W2 m ρ c (Proc.devRef .tc main_arg9) = m ((c.tc : Thread nD τ).loc main_arg9) :=
  calc Gen.W2 m ρ c (Proc.devRef .tc main_arg9)
    _ = Gen.W1 m ρ c (Proc.devRef .tc main_arg9) := Gen.W2_of_ne m ρ c main_arg9 (by decide)
    _ = Gen.W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg9) := rfl

/-- What the second stretch of host operations leaves in the buffer of rows 0–63 of the update's first weight
    matrix, from any contents `V` at its start. -/
theorem after1_v38 (V : Valuation τ sig (Elt Ideal)) :
    StableHlo.after hostOps1 V (Proc.devRef .tc main_v38)
      = (extractStridedSlice S64x128 ![0, 0] (truncf (F := Ideal) .bf16 (V (Proc.devRef .tc main_arg9)) bitsLt_bf16_f32) slices_S96x128_S64x128_0_0
          : (⟨S64x128, .bf16⟩ : BufTy).Contents (Elt Ideal)) := by
  after_results

/-- Rows 0–63 of the update's first weight matrix, as the second region finds them. -/
theorem V3_v38 (c : Dev nD) (k : Fin 64) (j : Fin 128) :
    Gen.V3 m ρ c main_v38 (ix2 k j) = m ((c.tc : Thread nD τ).loc main_arg9) (ix2 (shift 96 0 (by omega) k) j) := by
  have e1 := after1_v38 (Gen.W2 m ρ c)
  rw [W2_main_arg9 m ρ c] at e1
  exact (congrFun e1 (ix2 k j)).trans (slice_rows_apply (α := EReal) 0 (by omega) _ _ k j)

/-- Argument 0 at the second stretch's start is as launched: the first region has no array at it and the first
    stretch of host operations does not write it. -/
theorem W2_main_arg0 (c : Dev nD) : Gen.W2 m ρ c (Proc.devRef .tc main_arg0) = m ((c.tc : Thread nD τ).loc main_arg0) :=
  calc Gen.W2 m ρ c (Proc.devRef .tc main_arg0)
    _ = Gen.W1 m ρ c (Proc.devRef .tc main_arg0) := Gen.W2_of_ne m ρ c main_arg0 (by decide)
    _ = Gen.W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := rfl

/-- Argument 2 at the second stretch's start is as launched: the first region has no array at it and the first
    stretch of host operations does not write it. -/
theorem W2_main_arg2 (c : Dev nD) : Gen.W2 m ρ c (Proc.devRef .tc main_arg2) = m ((c.tc : Thread nD τ).loc main_arg2) :=
  calc Gen.W2 m ρ c (Proc.devRef .tc main_arg2)
    _ = Gen.W1 m ρ c (Proc.devRef .tc main_arg2) := Gen.W2_of_ne m ρ c main_arg2 (by decide)
    _ = Gen.W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

/-- Argument 10 at the second stretch's start is as launched: the first region has no array at it and the first
    stretch of host operations does not write it. -/
theorem W2_main_arg10 (c : Dev nD) : Gen.W2 m ρ c (Proc.devRef .tc main_arg10) = m ((c.tc : Thread nD τ).loc main_arg10) :=
  calc Gen.W2 m ρ c (Proc.devRef .tc main_arg10)
    _ = Gen.W1 m ρ c (Proc.devRef .tc main_arg10) := Gen.W2_of_ne m ρ c main_arg10 (by decide)
    _ = Gen.W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg10) := rfl

/-- Argument 11 at the second stretch's start is as launched: the first region has no array at it and the first
    stretch of host operations does not write it. -/
theorem W2_main_arg11 (c : Dev nD) : Gen.W2 m ρ c (Proc.devRef .tc main_arg11) = m ((c.tc : Thread nD τ).loc main_arg11) :=
  calc Gen.W2 m ρ c (Proc.devRef .tc main_arg11)
    _ = Gen.W1 m ρ c (Proc.devRef .tc main_arg11) := Gen.W2_of_ne m ρ c main_arg11 (by decide)
    _ = Gen.W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg11) := rfl

/-- Argument 12 at the second stretch's start is as launched: the first region has no array at it and the first
    stretch of host operations does not write it. -/
theorem W2_main_arg12 (c : Dev nD) : Gen.W2 m ρ c (Proc.devRef .tc main_arg12) = m ((c.tc : Thread nD τ).loc main_arg12) :=
  calc Gen.W2 m ρ c (Proc.devRef .tc main_arg12)
    _ = Gen.W1 m ρ c (Proc.devRef .tc main_arg12) := Gen.W2_of_ne m ρ c main_arg12 (by decide)
    _ = Gen.W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg12) := rfl

/-- Argument 0 at the second region's entry is as launched: the second stretch of host operations does not
    write it either. -/
theorem V3_main_arg0 (c : Dev nD) : Gen.V3 m ρ c main_arg0 = m ((c.tc : Thread nD τ).loc main_arg0) :=
  calc Gen.W3 m ρ c (Proc.devRef .tc main_arg0)
    _ = Gen.W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := W2_main_arg0 m ρ c

/-- Argument 2 at the second region's entry is as launched: the second stretch of host operations does not
    write it either. -/
theorem V3_main_arg2 (c : Dev nD) : Gen.V3 m ρ c main_arg2 = m ((c.tc : Thread nD τ).loc main_arg2) :=
  calc Gen.W3 m ρ c (Proc.devRef .tc main_arg2)
    _ = Gen.W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := W2_main_arg2 m ρ c

/-- What the second stretch of host operations leaves in the buffer of rows 64–95 of the update's first weight
    matrix, from any contents `V` at its start. -/
theorem after1_v39 (V : Valuation τ sig (Elt Ideal)) :
    StableHlo.after hostOps1 V (Proc.devRef .tc main_v39)
      = (extractStridedSlice S32x128 ![64, 0] (truncf (F := Ideal) .bf16 (V (Proc.devRef .tc main_arg9)) bitsLt_bf16_f32) slices_S96x128_S32x128_64_0
          : (⟨S32x128, .bf16⟩ : BufTy).Contents (Elt Ideal)) := by
  after_results

/-- Rows 64–95 of the update's first weight matrix, as the second region finds them. -/
theorem V3_v39 (c : Dev nD) (k : Fin 32) (j : Fin 128) :
    Gen.V3 m ρ c main_v39 (ix2 k j) = m ((c.tc : Thread nD τ).loc main_arg9) (ix2 (shift 96 64 (by omega) k) j) := by
  have e1 := after1_v39 (Gen.W2 m ρ c)
  rw [W2_main_arg9 m ρ c] at e1
  exact (congrFun e1 (ix2 k j)).trans (slice_rows_apply (α := EReal) 64 (by omega) _ _ k j)

/-- What the second stretch of host operations leaves in the buffer of the update's second weight matrix, from
    any contents `V` at its start: the argument in the other float format. -/
theorem after1_v40 (V : Valuation τ sig (Elt Ideal)) :
    StableHlo.after hostOps1 V (Proc.devRef .tc main_v40)
      = (truncf (F := Ideal) .bf16 (V (Proc.devRef .tc main_arg11)) bitsLt_bf16_f32
          : (⟨S128x64, .bf16⟩ : BufTy).Contents (Elt Ideal)) := by
  after_results

/-- The update's second weight matrix, as the second region finds it: on the extended reals the change of float
    format is the identity. -/
theorem V3_v40 (c : Dev nD) :
    (Gen.V3 m ρ c main_v40 : (⟨2, ![128, 64]⟩ : Shape).Idx → EReal) = m ((c.tc : Thread nD τ).loc main_arg11) := by
  have e1 := after1_v40 (Gen.W2 m ρ c)
  rw [W2_main_arg11 m ρ c] at e1
  exact e1

/-- What the second stretch of host operations leaves in the buffer of the update's first bias row, from any
    contents `V` at its start: the bias vector viewed as one row. -/
theorem after1_v41 (V : Valuation τ sig (Elt Ideal)) :
    StableHlo.after hostOps1 V (Proc.devRef .tc main_v41)
      = (shapeCast S1x128 (V (Proc.devRef .tc main_arg10)) shapeCasts_S128_S1x128
          : (⟨S1x128, .f32⟩ : BufTy).Contents (Elt Ideal)) := by
  after_results
  all_goals rfl

/-- The update's first bias, as the second region finds it. -/
theorem V3_v41 (c : Dev nD) (j : Fin 128) :
    Gen.V3 m ρ c main_v41 (ix2 0 j) = m ((c.tc : Thread nD τ).loc main_arg10) (ix1 j) := by
  have e1 := after1_v41 (Gen.W2 m ρ c)
  rw [W2_main_arg10 m ρ c] at e1
  exact (congrFun e1 (ix2 0 j)).trans (shapeCast_a_1a_apply (α := EReal) _ _ 0 j)

/-- What the second stretch of host operations leaves in the buffer of the update's second bias row, from any
    contents `V` at its start: the bias vector viewed as one row. -/
theorem after1_v42 (V : Valuation τ sig (Elt Ideal)) :
    StableHlo.after hostOps1 V (Proc.devRef .tc main_v42)
      = (shapeCast S1x64 (V (Proc.devRef .tc main_arg12)) shapeCasts_S64_S1x64
          : (⟨S1x64, .f32⟩ : BufTy).Contents (Elt Ideal)) := by
  after_results
  all_goals rfl

/-- The update's second bias, as the second region finds it. -/
theorem V3_v42 (c : Dev nD) (c' : Fin 64) :
    Gen.V3 m ρ c main_v42 (ix2 0 c') = m ((c.tc : Thread nD τ).loc main_arg12) (ix1 c') := by
  have e1 := after1_v42 (Gen.W2 m ρ c)
  rw [W2_main_arg12 m ρ c] at e1
  exact (congrFun e1 (ix2 0 c')).trans (shapeCast_a_1a_apply (α := EReal) _ _ 0 c')

end Cert.KernelIdeal.Entry1
end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.KPayload.lean ====
/-
  What one grid step of each of the two kernels stores, entry by entry, on the extended reals.

  Both kernels work row by row: entry (r, c) of a step's output block depends on row r of the step's row-blocked
  inputs and on the whole (small) weight and bias arrays. `msgRow` is the three-layer perceptron of one edge row
  given as its three pieces (96, 64 and 32 numbers, each against its own block of first-layer weights, the three
  products added in that order, then the bias); `nodeRow` is the two-layer update of one node row given as its two
  pieces (64 and 32 numbers), added to the node's own entry. A change of float format is the identity on the
  extended reals, a product into a zero accumulator is the plain sum of products, and the rectifier is max(·, 0).
-/
import proofs.«160387_j82592221102879_2_alg».proof.Proof.Gen.KernelIdeal.Skeleton
import proofs.«160387_j82592221102879_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KVal

open Cert.KernelIdeal Cert.KernelIdeal.Gen Idealize.ShloMosaic Idealize.ShloMosaic.ValueIdx Cert.Proof.PlainDot

/-- The first hidden layer of one edge row from its three pieces. -/
def msgHid1 (a : Fin 96 → EReal) (b : Fin 64 → EReal) (e : Fin 32 → EReal)
    (wa : Fin 96 → Fin 128 → EReal) (wb : Fin 64 → Fin 128 → EReal) (we : Fin 32 → Fin 128 → EReal) (b1 : Fin 128 → EReal)
    (j : Fin 128) : EReal :=
  max ((((∑ k : Fin 96, a k * wa k j) + ∑ k : Fin 64, b k * wb k j) + ∑ k : Fin 32, e k * we k j) + b1 j) 0

/-- The message of one edge row: three layers, two rectifiers. -/
def msgRow (a : Fin 96 → EReal) (b : Fin 64 → EReal) (e : Fin 32 → EReal)
    (wa : Fin 96 → Fin 128 → EReal) (wb : Fin 64 → Fin 128 → EReal) (we : Fin 32 → Fin 128 → EReal) (b1 : Fin 128 → EReal)
    (w2 : Fin 128 → Fin 128 → EReal) (b2 : Fin 128 → EReal) (w3 : Fin 128 → Fin 64 → EReal) (b3 : Fin 64 → EReal)
    (c : Fin 64) : EReal :=
  (∑ k : Fin 128, max ((∑ i : Fin 128, msgHid1 a b e wa wb we b1 i * w2 i k) + b2 k) 0 * w3 k c) + b3 c

/-- The update of one node row from its two pieces: the node's entry plus two layers with one rectifier. -/
def nodeRow (a : Fin 64 → EReal) (b : Fin 32 → EReal) (wa : Fin 64 → Fin 128 → EReal) (wb : Fin 32 → Fin 128 → EReal)
    (b1 : Fin 128 → EReal) (w2 : Fin 128 → Fin 64 → EReal) (b2 : Fin 64 → EReal) (c : Fin 64) : EReal :=
  a c + ((∑ k : Fin 128, max (((∑ i : Fin 64, a i * wa i k) + ∑ i : Fin 32, b i * wb i k) + b1 k) 0 * w2 k c) + b2 c)

/-- The float zero word is the real zero. -/
theorem zero_word : (Scalar.ofBits (F := Ideal) .f32 0x00000000#32 : Ideal .f32) = (0 : EReal) := Ideal.ofBits_zero_f32

/-- A plain product into the zero accumulator, read at row `r`, column `c`. -/
theorem matmul_at {M K N : Nat} {φ₁ φ₂ : FTy} (X : FVec Ideal ⟨2, ![M, K]⟩ φ₁) (W : FVec Ideal ⟨2, ![K, N]⟩ φ₂) (r : Fin M) (c : Fin N) :
    matmul (DotDims.plain M K N) none X W (constant ⟨2, ![M, N]⟩ .f32 0x00000000#32) (ix2 r c)
      = ∑ k : Fin K, X (ix2 r k) * W (ix2 k c) :=
  matmul_plain_zero none X W (ix2 r c)

/-- The update kernel's stored value at row `r`, column `c`. -/
theorem pay_node_apply (x0 : Vec Ideal S5000x64 .f32) (x1 : Vec Ideal S5000x32 .f32) (x2 : Vec Ideal S64x128 .bf16)
    (x3 : Vec Ideal S32x128 .bf16) (x4 : Vec Ideal S1x128 .f32) (x5 : Vec Ideal S128x64 .bf16) (x6 : Vec Ideal S1x64 .f32)
    (r : Fin 5000) (c : Fin 64) :
    k1_pay1 (F := Ideal) x0 x1 x2 x3 x4 x5 x6 (ix2 r c)
      = nodeRow (fun k => x0 (ix2 r k)) (fun k => x1 (ix2 r k)) (fun k j => x2 (ix2 k j)) (fun k j => x3 (ix2 k j))
          (fun j => x4 (ix2 0 j)) (fun k j => x5 (ix2 k j)) (fun j => x6 (ix2 0 j)) c := by
  unfold k1_pay1 nodeRow
  simp only [shapeCast_self]
  rw [show dot_S5000x128_S128x64_S5000x64_1_0_0_1_n_n = DotDims.plain 5000 128 64 from rfl,
    show dot_S5000x64_S64x128_S5000x128_1_0_0_1_n_n = DotDims.plain 5000 64 128 from rfl,
    show dot_S5000x32_S32x128_S5000x128_1_0_0_1_n_n = DotDims.plain 5000 32 128 from rfl]
  rw [addf_apply, addf_apply, broadcastTo_1b_ab_apply, matmul_at]
  refine congrArg (x0 (ix2 r c) + ·) (congrArg (· + x6 (ix2 0 c)) (Finset.sum_congr rfl fun k _ => ?_))
  rw [truncf_apply, maximumf_apply, addf_apply, addf_apply, broadcastTo_1b_ab_apply, matmul_at, matmul_at, broadcast_apply, zero_word]
  rfl

/-- The message kernel's stored value at row `r`, column `c`. -/
theorem pay_msg_apply (x0 : Vec Ideal S8000x96 .bf16) (x1 : Vec Ideal S8000x64 .bf16) (x2 : Vec Ideal S8000x32 .bf16)
    (x3 : Vec Ideal S96x128 .bf16) (x4 : Vec Ideal S64x128 .bf16) (x5 : Vec Ideal S32x128 .bf16) (x6 : Vec Ideal S1x128 .f32)
    (x7 : Vec Ideal S128x128 .bf16) (x8 : Vec Ideal S1x128 .f32) (x9 : Vec Ideal S128x64 .bf16) (x10 : Vec Ideal S1x64 .f32)
    (r : Fin 8000) (c : Fin 64) :
    k0_pay1 (F := Ideal) (k0_pay2 (F := Ideal) x0 x1 x2 x3 x4 x5 x6 x7 x8) x9 x10 (ix2 r c)
      = msgRow (fun k => x0 (ix2 r k)) (fun k => x1 (ix2 r k)) (fun k => x2 (ix2 r k))
          (fun k j => x3 (ix2 k j)) (fun k j => x4 (ix2 k j)) (fun k j => x5 (ix2 k j)) (fun j => x6 (ix2 0 j))
          (fun k j => x7 (ix2 k j)) (fun j => x8 (ix2 0 j)) (fun k j => x9 (ix2 k j)) (fun j => x10 (ix2 0 j)) c := by
  unfold k0_pay1 k0_pay2 msgRow msgHid1
  simp only [shapeCast_self]
  rw [show dot_S8000x128_S128x64_S8000x64_1_0_0_1_n_n = DotDims.plain 8000 128 64 from rfl,
    show dot_S8000x128_S128x128_S8000x128_1_0_0_1_n_n = DotDims.plain 8000 128 128 from rfl,
    show dot_S8000x96_S96x128_S8000x128_1_0_0_1_n_n = DotDims.plain 8000 96 128 from rfl,
    show dot_S8000x64_S64x128_S8000x128_1_0_0_1_n_n = DotDims.plain 8000 64 128 from rfl,
    show dot_S8000x32_S32x128_S8000x128_1_0_0_1_n_n = DotDims.plain 8000 32 128 from rfl]
  rw [addf_apply, broadcastTo_1b_ab_apply, matmul_at]
  refine congrArg (· + x10 (ix2 0 c)) (Finset.sum_congr rfl fun k _ => ?_)
  rw [truncf_apply, maximumf_apply, addf_apply, broadcastTo_1b_ab_apply, matmul_at, broadcast_apply, zero_word]
  refine congrArg (fun z => max (z + x8 (ix2 0 k)) 0 * x9 (ix2 k c)) (Finset.sum_congr rfl fun i _ => ?_)
  rw [truncf_apply, maximumf_apply, addf_apply, addf_apply, addf_apply, broadcastTo_1b_ab_apply, matmul_at, matmul_at, matmul_at,
    broadcast_apply]

end Cert.KernelIdeal.KVal

end
-- ==== Proof.KRegion0.lean ====
/-
  The message kernel's output array after its hundred grid steps, as one function of the arrays it was launched on.

  Step t reads rows 8000·t … 8000·t + 7999 of the three edge-row arrays and the whole weight and bias arrays, and writes
  the same rows of the output; entry (e, c) of the output is therefore `msgRow` of row e of the three inputs. The
  hundred row blocks tile the 800000 rows, so the whole array is that function.
-/
import proofs.«160387_j82592221102879_2_alg».proof.Proof.Gen.KernelIdeal.Frame
import proofs.«160387_j82592221102879_2_alg».proof.Proof.KPayload

set_option maxRecDepth 16384

noncomputable section

open scoped BigOperators

namespace Cert.KernelIdeal.KVal

open Cert.KernelIdeal Cert.KernelIdeal.Gen Idealize.ShloMosaic Idealize.ShloMosaic.ValueIdx Idealize.ShloMosaic.TcCoe
open Idealize.SL.Sem Idealize.ShloMosaic.Pipeline

variable (V : (c : Dev nD) → (b : Ref sig .tc) → Buf (Elt Ideal) ((c : Thread nD τ).loc b))

theorem zeros2' : (![0, 0] : Fin 2 → Nat) = fun _ => 0 := funext fun a => by fin_cases a <;> rfl

/-- Every entry of the message kernel's output from the whole arrays: row `i 0` of the three inputs, the weights. -/
def messagesOf (X0 : Vec Ideal S800000x96 .bf16) (X1 : Vec Ideal S800000x64 .bf16) (X2 : Vec Ideal S800000x32 .bf16)
    (Wa : Vec Ideal S96x128 .bf16) (Wb : Vec Ideal S64x128 .bf16) (We : Vec Ideal S32x128 .bf16) (B1 : Vec Ideal S1x128 .f32)
    (W2 : Vec Ideal S128x128 .bf16) (B2 : Vec Ideal S1x128 .f32) (W3 : Vec Ideal S128x64 .bf16) (B3 : Vec Ideal S1x64 .f32) :
    Vec Ideal S800000x64 .f32 :=
  fun i => msgRow (fun k => X0 (ix2 (i 0) k)) (fun k => X1 (ix2 (i 0) k)) (fun k => X2 (ix2 (i 0) k))
    (fun k j => Wa (ix2 k j)) (fun k j => Wb (ix2 k j)) (fun k j => We (ix2 k j)) (fun j => B1 (ix2 0 j))
    (fun k j => W2 (ix2 k j)) (fun j => B2 (ix2 0 j)) (fun k j => W3 (ix2 k j)) (fun j => B3 (ix2 0 j)) (i 1)

/-- The stored value at any index of the block, by rows. -/
theorem pay_msg_at (x0 : Vec Ideal S8000x96 .bf16) (x1 : Vec Ideal S8000x64 .bf16) (x2 : Vec Ideal S8000x32 .bf16)
    (x3 : Vec Ideal S96x128 .bf16) (x4 : Vec Ideal S64x128 .bf16) (x5 : Vec Ideal S32x128 .bf16) (x6 : Vec Ideal S1x128 .f32)
    (x7 : Vec Ideal S128x128 .bf16) (x8 : Vec Ideal S1x128 .f32) (x9 : Vec Ideal S128x64 .bf16) (x10 : Vec Ideal S1x64 .f32)
    (j : S8000x64.Idx) :
    k0_pay1 (F := Ideal) (k0_pay2 (F := Ideal) x0 x1 x2 x3 x4 x5 x6 x7 x8) x9 x10 j
      = msgRow (fun k => x0 (ix2 (j 0) k)) (fun k => x1 (ix2 (j 0) k)) (fun k => x2 (ix2 (j 0) k))
          (fun k j => x3 (ix2 k j)) (fun k j => x4 (ix2 k j)) (fun k j => x5 (ix2 k j)) (fun j => x6 (ix2 0 j))
          (fun k j => x7 (ix2 k j)) (fun j => x8 (ix2 0 j)) (fun k j => x9 (ix2 k j)) (fun j => x10 (ix2 0 j)) (j 1) := by
  obtain ⟨r, q, rfl⟩ : ∃ (r : Fin 8000) (q : Fin 64), j = ix2 r q := ⟨j 0, j 1, eq_ix2 j⟩
  exact pay_msg_apply x0 x1 x2 x3 x4 x5 x6 x7 x8 x9 x10 r q

/-- `msgRow` respects equality of every argument. -/
theorem msgRow_congr {a a' : Fin 96 → EReal} {b b' : Fin 64 → EReal} {e e' : Fin 32 → EReal}
    {wa wa' : Fin 96 → Fin 128 → EReal} {wb wb' : Fin 64 → Fin 128 → EReal} {we we' : Fin 32 → Fin 128 → EReal} {b1 b1' : Fin 128 → EReal}
    {w2 w2' : Fin 128 → Fin 128 → EReal} {b2 b2' : Fin 128 → EReal} {w3 w3' : Fin 128 → Fin 64 → EReal} {b3 b3' : Fin 64 → EReal} {c c' : Fin 64}
    (ha : a = a') (hb : b = b') (he : e = e') (hwa : wa = wa') (hwb : wb = wb') (hwe : we = we') (hb1 : b1 = b1')
    (hw2 : w2 = w2') (hb2 : b2 = b2') (hw3 : w3 = w3') (hb3 : b3 = b3') (hc : c = c') :
    msgRow a b e wa wb we b1 w2 b2 w3 b3 c = msgRow a' b' e' wa' wb' we' b1' w2' b2' w3' b3' c' := by
  subst ha hb he hwa hwb hwe hb1 hw2 hb2 hw3 hb3 hc; rfl

/-- The printed index maps over the grid: the row-blocked windows sit at block row t, everything else at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- What step `t` writes back is block `t` of `messagesOf` of the arrays as the kernel finds them. -/
theorem flushed_messages (c : Dev nD) (t : Fin cfg0.N) :
    (dat0 V c).flushed 11 t = ((cfg0.win 11).blk t).view.read (Elt Ideal)
      (messagesOf (V c main_v14) (V c main_v21) (V c main_v5) (V c main_v25) (V c main_v26) (V c main_v27) (V c main_v30) (V c main_v28) (V c main_v31) (V c main_v29) (V c main_v32)) := by
  show (cfg0.win 11).cut (grid0.coords t) ((dat0 V c).after 11 t) = _
  rw [after0_11]
  unfold out0_11
  rw [View.canon_unit_zero zeros2']
  simp only [View.ld_unit_zero (S := S8000x96) zeros2', View.ld_unit_zero (S := S8000x64) zeros2', View.ld_unit_zero (S := S8000x32) zeros2',
    View.ld_unit_zero (S := S96x128) zeros2', View.ld_unit_zero (S := S64x128) zeros2', View.ld_unit_zero (S := S32x128) zeros2',
    View.ld_unit_zero (S := S1x128) zeros2', View.ld_unit_zero (S := S128x128) zeros2', View.ld_unit_zero (S := S128x64) zeros2',
    View.ld_unit_zero (S := S1x64) zeros2']
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts0 t
  funext j
  show k0_pay1 (F := Ideal) (k0_pay2 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 9 t) (iblk0 V c 10 t) j
    = messagesOf (V c main_v14) (V c main_v21) (V c main_v5) (V c main_v25) (V c main_v26) (V c main_v27) (V c main_v30) (V c main_v28) (V c main_v31) (V c main_v29) (V c main_v32)
        (((cfg0.win 11).blk t).view.emb j)
  refine (pay_msg_at (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) j).trans ?_
  unfold messagesOf
  refine msgRow_congr ?_ ?_ ?_ ?_ ?_ ?_ ?_ ?_ ?_ ?_ ?_ ?_
  · funext k
    show V c main_v14 (((cfg0.win 0).blk t).view.emb (ix2 (j 0) k)) = _
    refine congrArg (V c main_v14) ?_
    funext a; apply Fin.ext
    match a with
    | ⟨0, _⟩ => show win0_0.index t (0 : Fin 2) * 8000 + 1 * (j 0).val = win0_11.index t (0 : Fin 2) * 8000 + 1 * (j 0).val; omega
    | ⟨1, _⟩ => show win0_0.index t (1 : Fin 2) * 96 + 1 * k.val = k.val; omega
  · funext k
    show V c main_v21 (((cfg0.win 1).blk t).view.emb (ix2 (j 0) k)) = _
    refine congrArg (V c main_v21) ?_
    funext a; apply Fin.ext
    match a with
    | ⟨0, _⟩ => show win0_1.index t (0 : Fin 2) * 8000 + 1 * (j 0).val = win0_11.index t (0 : Fin 2) * 8000 + 1 * (j 0).val; omega
    | ⟨1, _⟩ => show win0_1.index t (1 : Fin 2) * 64 + 1 * k.val = k.val; omega
  · funext k
    show V c main_v5 (((cfg0.win 2).blk t).view.emb (ix2 (j 0) k)) = _
    refine congrArg (V c main_v5) ?_
    funext a; apply Fin.ext
    match a with
    | ⟨0, _⟩ => show win0_2.index t (0 : Fin 2) * 8000 + 1 * (j 0).val = win0_11.index t (0 : Fin 2) * 8000 + 1 * (j 0).val; omega
    | ⟨1, _⟩ => show win0_2.index t (1 : Fin 2) * 32 + 1 * k.val = k.val; omega
  · funext k j'
    show V c main_v25 (((cfg0.win 3).blk t).view.emb (ix2 k j')) = _
    refine congrArg (V c main_v25) ?_
    funext a; apply Fin.ext
    match a with
    | ⟨0, _⟩ => show win0_3.index t (0 : Fin 2) * 96 + 1 * k.val = k.val; omega
    | ⟨1, _⟩ => show win0_3.index t (1 : Fin 2) * 128 + 1 * j'.val = j'.val; omega
  · funext k j'
    show V c main_v26 (((cfg0.win 4).blk t).view.emb (ix2 k j')) = _
    refine congrArg (V c main_v26) ?_
    funext a; apply Fin.ext
    match a with
    | ⟨0, _⟩ => show win0_4.index t (0 : Fin 2) * 64 + 1 * k.val = k.val; omega
    | ⟨1, _⟩ => show win0_4.index t (1 : Fin 2) * 128 + 1 * j'.val = j'.val; omega
  · funext k j'
    show V c main_v27 (((cfg0.win 5).blk t).view.emb (ix2 k j')) = _
    refine congrArg (V c main_v27) ?_
    funext a; apply Fin.ext
    match a with
    | ⟨0, _⟩ => show win0_5.index t (0 : Fin 2) * 32 + 1 * k.val = k.val; omega
    | ⟨1, _⟩ => show win0_5.index t (1 : Fin 2) * 128 + 1 * j'.val = j'.val; omega
  · funext j'
    show V c main_v30 (((cfg0.win 6).blk t).view.emb (ix2 0 j')) = _
    refine congrArg (V c main_v30) ?_
    funext a; apply Fin.ext
    match a with
    | ⟨0, _⟩ => show win0_6.index t (0 : Fin 2) * 1 + 1 * 0 = 0; omega
    | ⟨1, _⟩ => show win0_6.index t (1 : Fin 2) * 128 + 1 * j'.val = j'.val; omega
  · funext k j'
    show V c main_v28 (((cfg0.win 7).blk t).view.emb (ix2 k j')) = _
    refine congrArg (V c main_v28) ?_
    funext a; apply Fin.ext
    match a with
    | ⟨0, _⟩ => show win0_7.index t (0 : Fin 2) * 128 + 1 * k.val = k.val; omega
    | ⟨1, _⟩ => show win0_7.index t (1 : Fin 2) * 128 + 1 * j'.val = j'.val; omega
  · funext j'
    show V c main_v31 (((cfg0.win 8).blk t).view.emb (ix2 0 j')) = _
    refine congrArg (V c main_v31) ?_
    funext a; apply Fin.ext
    match a with
    | ⟨0, _⟩ => show win0_8.index t (0 : Fin 2) * 1 + 1 * 0 = 0; omega
    | ⟨1, _⟩ => show win0_8.index t (1 : Fin 2) * 128 + 1 * j'.val = j'.val; omega
  · funext k j'
    show V c main_v29 (((cfg0.win 9).blk t).view.emb (ix2 k j')) = _
    refine congrArg (V c main_v29) ?_
    funext a; apply Fin.ext
    match a with
    | ⟨0, _⟩ => show win0_9.index t (0 : Fin 2) * 128 + 1 * k.val = k.val; omega
    | ⟨1, _⟩ => show win0_9.index t (1 : Fin 2) * 64 + 1 * j'.val = j'.val; omega
  · funext j'
    show V c main_v32 (((cfg0.win 10).blk t).view.emb (ix2 0 j')) = _
    refine congrArg (V c main_v32) ?_
    funext a; apply Fin.ext
    match a with
    | ⟨0, _⟩ => show win0_10.index t (0 : Fin 2) * 1 + 1 * 0 = 0; omega
    | ⟨1, _⟩ => show win0_10.index t (1 : Fin 2) * 64 + 1 * j'.val = j'.val; omega
  · apply Fin.ext
    show (j 1).val = win0_11.index t (1 : Fin 2) * 64 + 1 * (j 1).val
    omega

/-- An index is in step `t`'s output block iff each coordinate is in the block's range on its axis. -/
theorem mem_blk_messages (t : Fin cfg0.N) (i : S800000x64.Idx) :
    i ∈ ((cfg0.win 11).blk t).view.set ↔ ∀ a : Fin 2, win0_11.index t a * S8000x64.size a ≤ (i a).val
      ∧ (i a).val < win0_11.index t a * S8000x64.size a + S8000x64.size a := by
  show i ∈ ((View.whole main_v33).slice (win0_11.rect t)).set ↔ _
  rw [View.set_slice_whole, Rect.mem_set_unit]
  exact Iff.rfl

/-- Row `e` of the output is written by step `e / 8000`: the hundred row blocks tile the array. -/
theorem cover_messages (i : S800000x64.Idx) :
    ∃ t : Fin cfg0.N, (cfg0.win 11).flush t = true ∧ i ∈ ((cfg0.win 11).blk t).view.set := by
  have hi0 : (i 0).val < 800000 := (i 0).isLt
  have hi1 : (i 1).val < 64 := (i 1).isLt
  have hN : grid0.N = 100 := N_0
  have ht : (i 0).val / 8000 < cfg0.N := by show (i 0).val / 8000 < grid0.N; rw [hN]; omega
  obtain ⟨-, -, -, -, -, -, -, -, -, -, -, -, -, -, -, -, -, -, -, -, -, -, e11_0, e11_1⟩ := idx_facts0 ⟨(i 0).val / 8000, ht⟩
  refine ⟨⟨(i 0).val / 8000, ht⟩, flush0_11 _, ?_⟩
  rw [mem_blk_messages]
  intro a
  match a with
  | ⟨0, _⟩ =>
    show win0_11.index ⟨(i 0).val / 8000, ht⟩ (0 : Fin 2) * 8000 ≤ (i 0).val
      ∧ (i 0).val < win0_11.index ⟨(i 0).val / 8000, ht⟩ (0 : Fin 2) * 8000 + 8000
    rw [e11_0]; show (i 0).val / 8000 * 8000 ≤ (i 0).val ∧ (i 0).val < (i 0).val / 8000 * 8000 + 8000; omega
  | ⟨1, _⟩ =>
    show win0_11.index ⟨(i 0).val / 8000, ht⟩ (1 : Fin 2) * 64 ≤ (i 1).val
      ∧ (i 1).val < win0_11.index ⟨(i 0).val / 8000, ht⟩ (1 : Fin 2) * 64 + 64
    rw [e11_1]; omega

/-- THE MESSAGE KERNEL'S OUTPUT after all its steps: `messagesOf` of the arrays it was launched on. -/
theorem region0_value (c : Dev nD) :
    (dat0 V c).arrAt 11 cfg0.N
      = messagesOf (V c main_v14) (V c main_v21) (V c main_v5) (V c main_v25) (V c main_v26) (V c main_v27) (V c main_v30) (V c main_v28) (V c main_v31) (V c main_v29) (V c main_v32) :=
  (dat0 V c).arrAt_eq_of_cover 11 _ (fun t _ => flushed_messages V c t) cover_messages

end Cert.KernelIdeal.KVal

end
-- ==== Proof.KRegion1.lean ====
/-
  The update kernel's output array after its ten grid steps, as one function of the arrays it was launched on.

  Step t reads rows 5000·t … 5000·t + 4999 of the node and spacetime arrays and the whole weight and bias arrays, and
  writes the same rows of the output; entry (n, c) of the output is therefore `nodeRow` of row n of the two inputs.
  The ten row blocks tile the 50000 rows, so the whole array is that function.
-/
import proofs.«160387_j82592221102879_2_alg».proof.Proof.Gen.KernelIdeal.Frame
import proofs.«160387_j82592221102879_2_alg».proof.Proof.KPayload

set_option maxRecDepth 16384

noncomputable section

open scoped BigOperators

namespace Cert.KernelIdeal.KVal

open Cert.KernelIdeal Cert.KernelIdeal.Gen Idealize.ShloMosaic Idealize.ShloMosaic.ValueIdx Idealize.ShloMosaic.TcCoe
open Idealize.SL.Sem Idealize.ShloMosaic.Pipeline

variable (V : (c : Dev nD) → (b : Ref sig .tc) → Buf (Elt Ideal) ((c : Thread nD τ).loc b))

theorem zeros2 : (![0, 0] : Fin 2 → Nat) = fun _ => 0 := funext fun a => by fin_cases a <;> rfl

/-- Every entry of the update kernel's output from the whole arrays: row `i 0` of the two inputs, the weights. -/
def nodesOf (X0 : Vec Ideal S50000x64 .f32) (X1 : Vec Ideal S50000x32 .f32) (Wa : Vec Ideal S64x128 .bf16) (Wb : Vec Ideal S32x128 .bf16)
    (B1 : Vec Ideal S1x128 .f32) (W2 : Vec Ideal S128x64 .bf16) (B2 : Vec Ideal S1x64 .f32) : Vec Ideal S50000x64 .f32 :=
  fun i => nodeRow (fun k => X0 (ix2 (i 0) k)) (fun k => X1 (ix2 (i 0) k)) (fun k j => Wa (ix2 k j)) (fun k j => Wb (ix2 k j))
    (fun j => B1 (ix2 0 j)) (fun k j => W2 (ix2 k j)) (fun j => B2 (ix2 0 j)) (i 1)

/-- The stored value at any index of the block, by rows. -/
theorem pay_node_at (x0 : Vec Ideal S5000x64 .f32) (x1 : Vec Ideal S5000x32 .f32) (x2 : Vec Ideal S64x128 .bf16)
    (x3 : Vec Ideal S32x128 .bf16) (x4 : Vec Ideal S1x128 .f32) (x5 : Vec Ideal S128x64 .bf16) (x6 : Vec Ideal S1x64 .f32)
    (j : S5000x64.Idx) :
    k1_pay1 (F := Ideal) x0 x1 x2 x3 x4 x5 x6 j
      = nodeRow (fun k => x0 (ix2 (j 0) k)) (fun k => x1 (ix2 (j 0) k)) (fun k j => x2 (ix2 k j)) (fun k j => x3 (ix2 k j))
          (fun j => x4 (ix2 0 j)) (fun k j => x5 (ix2 k j)) (fun j => x6 (ix2 0 j)) (j 1) := by
  obtain ⟨r, q, rfl⟩ : ∃ (r : Fin 5000) (q : Fin 64), j = ix2 r q := ⟨j 0, j 1, eq_ix2 j⟩
  exact pay_node_apply x0 x1 x2 x3 x4 x5 x6 r q

/-- `nodeRow` respects equality of every argument. -/
theorem nodeRow_congr {a a' : Fin 64 → EReal} {b b' : Fin 32 → EReal} {wa wa' : Fin 64 → Fin 128 → EReal} {wb wb' : Fin 32 → Fin 128 → EReal}
    {b1 b1' : Fin 128 → EReal} {w2 w2' : Fin 128 → Fin 64 → EReal} {b2 b2' : Fin 64 → EReal} {c c' : Fin 64}
    (ha : a = a') (hb : b = b') (hwa : wa = wa') (hwb : wb = wb') (hb1 : b1 = b1') (hw2 : w2 = w2') (hb2 : b2 = b2') (hc : c = c') :
    nodeRow a b wa wb b1 w2 b2 c = nodeRow a' b' wa' wb' b1' w2' b2' c' := by
  subst ha hb hwa hwb hb1 hw2 hb2 hc; rfl

/-- The printed index maps over the grid: the row-blocked windows sit at block row t, everything else at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What step `t` writes back is block `t` of `nodesOf` of the arrays as the kernel finds them. -/
theorem flushed_nodes (c : Dev nD) (t : Fin cfg1.N) :
    (dat1 V c).flushed 7 t = ((cfg1.win 7).blk t).view.read (Elt Ideal)
      (nodesOf (V c main_arg0) (V c main_arg2) (V c main_v38) (V c main_v39) (V c main_v41) (V c main_v40) (V c main_v42)) := by
  show (cfg1.win 7).cut (grid1.coords t) ((dat1 V c).after 7 t) = _
  rw [after1_7]
  unfold out1_7
  rw [View.canon_unit_zero zeros2]
  simp only [View.ld_unit_zero (S := S5000x64) zeros2, View.ld_unit_zero (S := S5000x32) zeros2, View.ld_unit_zero (S := S64x128) zeros2,
    View.ld_unit_zero (S := S32x128) zeros2, View.ld_unit_zero (S := S1x128) zeros2, View.ld_unit_zero (S := S128x64) zeros2,
    View.ld_unit_zero (S := S1x64) zeros2]
  obtain ⟨e00, e01, e10, e11, e20, e21, e30, e31, e40, e41, e50, e51, e60, e61, e70, e71⟩ := idx_facts1 t
  funext j
  show k1_pay1 (F := Ideal) (iblk1 V c 0 t) (iblk1 V c 1 t) (iblk1 V c 2 t) (iblk1 V c 3 t) (iblk1 V c 4 t) (iblk1 V c 5 t) (iblk1 V c 6 t) j
    = nodesOf (V c main_arg0) (V c main_arg2) (V c main_v38) (V c main_v39) (V c main_v41) (V c main_v40) (V c main_v42)
        (((cfg1.win 7).blk t).view.emb j)
  refine (pay_node_at (iblk1 V c 0 t) (iblk1 V c 1 t) (iblk1 V c 2 t) (iblk1 V c 3 t) (iblk1 V c 4 t) (iblk1 V c 5 t) (iblk1 V c 6 t) j).trans ?_
  unfold nodesOf
  refine nodeRow_congr ?_ ?_ ?_ ?_ ?_ ?_ ?_ ?_
  · funext k
    show V c main_arg0 (((cfg1.win 0).blk t).view.emb (ix2 (j 0) k)) = _
    refine congrArg (V c main_arg0) ?_
    funext a; apply Fin.ext
    match a with
    | ⟨0, _⟩ => show win1_0.index t (0 : Fin 2) * 5000 + 1 * (j 0).val = win1_7.index t (0 : Fin 2) * 5000 + 1 * (j 0).val; omega
    | ⟨1, _⟩ => show win1_0.index t (1 : Fin 2) * 64 + 1 * k.val = k.val; omega
  · funext k
    show V c main_arg2 (((cfg1.win 1).blk t).view.emb (ix2 (j 0) k)) = _
    refine congrArg (V c main_arg2) ?_
    funext a; apply Fin.ext
    match a with
    | ⟨0, _⟩ => show win1_1.index t (0 : Fin 2) * 5000 + 1 * (j 0).val = win1_7.index t (0 : Fin 2) * 5000 + 1 * (j 0).val; omega
    | ⟨1, _⟩ => show win1_1.index t (1 : Fin 2) * 32 + 1 * k.val = k.val; omega
  · funext k j'
    show V c main_v38 (((cfg1.win 2).blk t).view.emb (ix2 k j')) = _
    refine congrArg (V c main_v38) ?_
    funext a; apply Fin.ext
    match a with
    | ⟨0, _⟩ => show win1_2.index t (0 : Fin 2) * 64 + 1 * k.val = k.val; omega
    | ⟨1, _⟩ => show win1_2.index t (1 : Fin 2) * 128 + 1 * j'.val = j'.val; omega
  · funext k j'
    show V c main_v39 (((cfg1.win 3).blk t).view.emb (ix2 k j')) = _
    refine congrArg (V c main_v39) ?_
    funext a; apply Fin.ext
    match a with
    | ⟨0, _⟩ => show win1_3.index t (0 : Fin 2) * 32 + 1 * k.val = k.val; omega
    | ⟨1, _⟩ => show win1_3.index t (1 : Fin 2) * 128 + 1 * j'.val = j'.val; omega
  · funext j'
    show V c main_v41 (((cfg1.win 4).blk t).view.emb (ix2 0 j')) = _
    refine congrArg (V c main_v41) ?_
    funext a; apply Fin.ext
    match a with
    | ⟨0, _⟩ => show win1_4.index t (0 : Fin 2) * 1 + 1 * 0 = 0; omega
    | ⟨1, _⟩ => show win1_4.index t (1 : Fin 2) * 128 + 1 * j'.val = j'.val; omega
  · funext k j'
    show V c main_v40 (((cfg1.win 5).blk t).view.emb (ix2 k j')) = _
    refine congrArg (V c main_v40) ?_
    funext a; apply Fin.ext
    match a with
    | ⟨0, _⟩ => show win1_5.index t (0 : Fin 2) * 128 + 1 * k.val = k.val; omega
    | ⟨1, _⟩ => show win1_5.index t (1 : Fin 2) * 64 + 1 * j'.val = j'.val; omega
  · funext j'
    show V c main_v42 (((cfg1.win 6).blk t).view.emb (ix2 0 j')) = _
    refine congrArg (V c main_v42) ?_
    funext a; apply Fin.ext
    match a with
    | ⟨0, _⟩ => show win1_6.index t (0 : Fin 2) * 1 + 1 * 0 = 0; omega
    | ⟨1, _⟩ => show win1_6.index t (1 : Fin 2) * 64 + 1 * j'.val = j'.val; omega
  · apply Fin.ext
    show (j 1).val = win1_7.index t (1 : Fin 2) * 64 + 1 * (j 1).val
    omega

/-- An index is in step `t`'s output block iff each coordinate is in the block's range on its axis. -/
theorem mem_blk_nodes (t : Fin cfg1.N) (i : S50000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v43).slice (win1_7.rect t)).set ↔ _
  rw [View.set_slice_whole, Rect.mem_set_unit]
  exact Iff.rfl

/-- Row `n` of the output is written by step `n / 5000`: the ten row blocks tile the array. -/
theorem cover_nodes (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : grid1.N = 10 := N_1
  have ht : (i 0).val / 5000 < cfg1.N := by show (i 0).val / 5000 < grid1.N; rw [hN]; omega
  obtain ⟨-, -, -, -, -, -, -, -, -, -, -, -, -, -, e70, e71⟩ := idx_facts1 ⟨(i 0).val / 5000, ht⟩
  refine ⟨⟨(i 0).val / 5000, ht⟩, flush1_7 _, ?_⟩
  rw [mem_blk_nodes]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [e70]; show (i 0).val / 5000 * 5000 ≤ (i 0).val ∧ (i 0).val < (i 0).val / 5000 * 5000 + 5000; omega
  | ⟨1, _⟩ =>
    show win1_7.index ⟨(i 0).val / 5000, ht⟩ (1 : Fin 2) * 64 ≤ (i 1).val
      ∧ (i 1).val < win1_7.index ⟨(i 0).val / 5000, ht⟩ (1 : Fin 2) * 64 + 64
    rw [e71]; omega

/-- THE UPDATE KERNEL'S OUTPUT after all its steps: `nodesOf` of the arrays it was launched on. -/
theorem region1_value (c : Dev nD) :
    (dat1 V c).arrAt 7 cfg1.N
      = nodesOf (V c main_arg0) (V c main_arg2) (V c main_v38) (V c main_v39) (V c main_v41) (V c main_v40) (V c main_v42) :=
  (dat1 V c).arrAt_eq_of_cover 7 _ (fun t _ => flushed_nodes V c t) cover_nodes

end Cert.KernelIdeal.KVal

end
-- ==== Proof.KBridge.lean ====
/-
  The per-row formulas of the two kernels are the specification's formulas.

  The node update is the same expression once the row pieces and the weights are named. The message's first layer is
  written by the kernel as ((Σ_{k<96} a k · wa k j + Σ_{k<64} b k · wb k j) + Σ_{k<32} ed k · we k j) + b1 j, where the
  96-entry piece is (node[s e] | spacetime[s e]) against rows 0–63 and 160–191 of the 192 × 128 matrix; its 96-term sum
  is the sum of the first 64 terms plus the sum of the last 32. With p0, p1, p2, p3 the partial products of the four
  pieces in the specification's order, the kernel's sum is ((p0 + p3) + p1) + p2 and the specification's is
  ((p0 + p1) + p2) + p3: equal because addition of extended reals is commutative and associative. The later layers
  are the same sums over the previous layer.
-/
import proofs.«160387_j82592221102879_2_alg».proof.Proof.KPayload
import proofs.«160387_j82592221102879_2_alg».proof.Proof.Spec

noncomputable section

open scoped BigOperators

namespace Cert.KernelIdeal.KVal

open Cert.Spec Idealize.ShloMosaic Idealize.ShloMosaic.ValueIdx

/-- Four summands taken in the order 0, 3, 1, 2 add up to the same as in the order 0, 1, 2, 3. -/
theorem reorder4 (p0 p1 p2 p3 : EReal) : ((p0 + p3) + p1) + p2 = ((p0 + p1) + p2) + p3 := by
  rw [add_right_comm p0 p3 p1, add_right_comm (p0 + p1) p3 p2]

/-- The update of one node row is the specification's updated entry. -/
theorem nodeRow_eq_spec (A0 : FVec Ideal ⟨2, ![50000, 64]⟩ .f32) (A2 : FVec Ideal ⟨2, ![50000, 32]⟩ .f32)
    (A9 : FVec Ideal ⟨2, ![96, 128]⟩ .f32) (A10 : FVec Ideal ⟨1, ![128]⟩ .f32) (A11 : FVec Ideal ⟨2, ![128, 64]⟩ .f32)
    (A12 : FVec Ideal ⟨1, ![64]⟩ .f32) (n : Fin 50000) (c : Fin 64)
    (a : Fin 64 → EReal) (b : Fin 32 → EReal) (wa : Fin 64 → Fin 128 → EReal) (wb : Fin 32 → Fin 128 → EReal)
    (b1 : Fin 128 → EReal) (w2 : Fin 128 → Fin 64 → EReal) (b2 : Fin 64 → EReal)
    (ha : ∀ k, a k = A0 (ix2 n k)) (hb : ∀ k, b k = A2 (ix2 n k))
    (hwa : ∀ k j, wa k j = A9 (ix2 (shift 96 0 (by omega) k) j))
    (hwb : ∀ k j, wb k j = A9 (ix2 (shift 96 64 (by omega) k) j))
    (hb1 : ∀ j, b1 j = A10 (ix1 j)) (hw2 : ∀ k j, w2 k j = A11 (ix2 k j)) (hb2 : ∀ j, b2 j = A12 (ix1 j)) :
    nodeRow a b wa wb b1 w2 b2 c = Cert.Spec.upd A0 A2 A9 A10 A11 A12 n c := by
  obtain rfl : a = fun k => A0 (ix2 n k) := funext ha
  obtain rfl : b = fun k => A2 (ix2 n k) := funext hb
  obtain rfl : wa = fun k j => A9 (ix2 (shift 96 0 (by omega) k) j) := funext fun k => funext fun j => hwa k j
  obtain rfl : wb = fun k j => A9 (ix2 (shift 96 64 (by omega) k) j) := funext fun k => funext fun j => hwb k j
  obtain rfl : b1 = fun j => A10 (ix1 j) := funext hb1
  obtain rfl : w2 = fun k j => A11 (ix2 k j) := funext fun k => funext fun j => hw2 k j
  obtain rfl : b2 = fun j => A12 (ix1 j) := funext hb2
  rfl

section Message

variable (s d : Fin 800000 → Fin 50000)
  (A0 : FVec Ideal ⟨2, ![50000, 64]⟩ .f32) (A1 : FVec Ideal ⟨2, ![800000, 32]⟩ .f32) (A2 : FVec Ideal ⟨2, ![50000, 32]⟩ .f32)
  (A3 : FVec Ideal ⟨2, ![192, 128]⟩ .f32) (A4 : FVec Ideal ⟨1, ![128]⟩ .f32) (A5 : FVec Ideal ⟨2, ![128, 128]⟩ .f32)
  (A6 : FVec Ideal ⟨1, ![128]⟩ .f32) (A7 : FVec Ideal ⟨2, ![128, 64]⟩ .f32) (A8 : FVec Ideal ⟨1, ![64]⟩ .f32)

/-- The first hidden layer of one edge row is the specification's. -/
theorem msgHid1_eq_spec (e : Fin 800000)
    (a : Fin 96 → EReal) (b : Fin 64 → EReal) (ed : Fin 32 → EReal) (wa : Fin 96 → Fin 128 → EReal)
    (wb : Fin 64 → Fin 128 → EReal) (we : Fin 32 → Fin 128 → EReal) (b1 : Fin 128 → EReal)
    (ha0 : ∀ k : Fin 64, a (shift 96 0 (by omega) k) = A0 (ix2 (s e) k))
    (ha1 : ∀ k : Fin 32, a (shift 96 64 (by omega) k) = A2 (ix2 (s e) k))
    (hb : ∀ k, b k = A0 (ix2 (d e) k)) (he : ∀ k, ed k = A1 (ix2 e k))
    (hwa0 : ∀ (k : Fin 64) j, wa (shift 96 0 (by omega) k) j = A3 (ix2 (shift 192 0 (by omega) k) j))
    (hwa1 : ∀ (k : Fin 32) j, wa (shift 96 64 (by omega) k) j = A3 (ix2 (shift 192 160 (by omega) k) j))
    (hwb : ∀ k j, wb k j = A3 (ix2 (shift 192 64 (by omega) k) j))
    (hwe : ∀ k j, we k j = A3 (ix2 (shift 192 128 (by omega) k) j))
    (hb1 : ∀ j, b1 j = A4 (ix1 j)) (j : Fin 128) :
    msgHid1 a b ed wa wb we b1 j = Cert.Spec.hid1 s d A0 A1 A2 A3 A4 e j := by
  unfold msgHid1 Cert.Spec.hid1
  have h96 : (∑ k : Fin 96, a k * wa k j)
      = (∑ k : Fin 64, A0 (ix2 (s e) k) * A3 (ix2 (shift 192 0 (by omega) k) j))
        + ∑ k : Fin 32, A2 (ix2 (s e) k) * A3 (ix2 (shift 192 160 (by omega) k) j) := by
    refine (Fin.sum_univ_add (a := 64) (b := 32) _).trans ?_
    congr 1
    · refine Finset.sum_congr rfl fun k _ => ?_
      have hk : Fin.castAdd 32 k = shift 96 0 (by omega) k := Fin.ext (Nat.zero_add _).symm
      rw [hk, ha0, hwa0]
    · refine Finset.sum_congr rfl fun k _ => ?_
      have hk : Fin.natAdd 64 k = shift 96 64 (by omega) k := Fin.ext rfl
      rw [hk, ha1, hwa1]
  have h64 : (∑ k : Fin 64, b k * wb k j)
      = ∑ k : Fin 64, A0 (ix2 (d e) k) * A3 (ix2 (shift 192 64 (by omega) k) j) :=
    Finset.sum_congr rfl fun k _ => by rw [hb, hwb]
  have h32 : (∑ k : Fin 32, ed k * we k j)
      = ∑ k : Fin 32, A1 (ix2 e k) * A3 (ix2 (shift 192 128 (by omega) k) j) :=
    Finset.sum_congr rfl fun k _ => by rw [he, hwe]
  rw [h96, h64, h32, hb1]
  exact congrArg (fun t => max (t + A4 (ix1 j)) 0) (reorder4 _ _ _ _)

/-- The message of one edge row is the specification's message entry. -/
theorem msgRow_eq_spec (e : Fin 800000) (c : Fin 64)
    (a : Fin 96 → EReal) (b : Fin 64 → EReal) (ed : Fin 32 → EReal) (wa : Fin 96 → Fin 128 → EReal)
    (wb : Fin 64 → Fin 128 → EReal) (we : Fin 32 → Fin 128 → EReal) (b1 : Fin 128 → EReal)
    (w2 : Fin 128 → Fin 128 → EReal) (b2 : Fin 128 → EReal) (w3 : Fin 128 → Fin 64 → EReal) (b3 : Fin 64 → EReal)
    (ha0 : ∀ k : Fin 64, a (shift 96 0 (by omega) k) = A0 (ix2 (s e) k))
    (ha1 : ∀ k : Fin 32, a (shift 96 64 (by omega) k) = A2 (ix2 (s e) k))
    (hb : ∀ k, b k = A0 (ix2 (d e) k)) (he : ∀ k, ed k = A1 (ix2 e k))
    (hwa0 : ∀ (k : Fin 64) j, wa (shift 96 0 (by omega) k) j = A3 (ix2 (shift 192 0 (by omega) k) j))
    (hwa1 : ∀ (k : Fin 32) j, wa (shift 96 64 (by omega) k) j = A3 (ix2 (shift 192 160 (by omega) k) j))
    (hwb : ∀ k j, wb k j = A3 (ix2 (shift 192 64 (by omega) k) j))
    (hwe : ∀ k j, we k j = A3 (ix2 (shift 192 128 (by omega) k) j))
    (hb1 : ∀ j, b1 j = A4 (ix1 j)) (hw2 : ∀ k j, w2 k j = A5 (ix2 k j)) (hb2 : ∀ j, b2 j = A6 (ix1 j))
    (hw3 : ∀ k c', w3 k c' = A7 (ix2 k c')) (hb3 : ∀ c', b3 c' = A8 (ix1 c')) :
    msgRow a b ed wa wb we b1 w2 b2 w3 b3 c = Cert.Spec.msg s d A0 A1 A2 A3 A4 A5 A6 A7 A8 e c := by
  unfold msgRow Cert.Spec.msg
  rw [hb3]
  refine congrArg (· + A8 (ix1 c)) (Finset.sum_congr rfl fun k _ => ?_)
  rw [hw3]
  refine congrArg (· * A7 (ix2 k c)) ?_
  unfold Cert.Spec.hid2
  rw [hb2]
  refine congrArg (fun t => max (t + A6 (ix1 k)) 0) (Finset.sum_congr rfl fun i _ => ?_)
  rw [hw2, msgHid1_eq_spec s d A0 A1 A2 A3 A4 e a b ed wa wb we b1 ha0 ha1 hb he hwa0 hwa1 hwb hwe hb1 i]

end Message

end Cert.KernelIdeal.KVal

end
-- ==== Proof.KFinal.lean ====
/-
  The kernel program's two results as the specification's formulas of its argument arrays.

  The updated nodes are the update kernel's output: `nodeRow` of the node and spacetime rows, whose weight blocks are
  rows 0–63 and 64–95 of the first update matrix. The aggregated messages are the scatter-add, at the destination
  indices, of the message kernel's output: `msgRow` of the gathered rows, whose weight blocks are rows 0–63 and 160–191
  (together), 64–127 and 128–159 of the first message matrix; regrouping the four partial products is the only algebra.
-/
import proofs.«160387_j82592221102879_2_alg».proof.Proof.KernelRun
import proofs.«160387_j82592221102879_2_alg».proof.Proof.KernelEntry0
import proofs.«160387_j82592221102879_2_alg».proof.Proof.KernelEntry1
import proofs.«160387_j82592221102879_2_alg».proof.Proof.KRegion0
import proofs.«160387_j82592221102879_2_alg».proof.Proof.KRegion1
import proofs.«160387_j82592221102879_2_alg».proof.Proof.KBridge

set_option maxRecDepth 16384

noncomputable section

namespace Cert.KernelIdeal.KFinal

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (ρ : Dev nD → PrngReg)

/-- The updated nodes, on every device: the specification's `newNodes` of the arguments. -/
theorem newNodes_value (c : Dev nD) :
    Gen.W4 m ρ c (Proc.devRef .tc main_v43)
      = Cert.Spec.newNodes (m ((c.tc : Thread nD τ).loc main_arg0)) (m ((c.tc : Thread nD τ).loc main_arg2))
          (m ((c.tc : Thread nD τ).loc main_arg9)) (m ((c.tc : Thread nD τ).loc main_arg10))
          (m ((c.tc : Thread nD τ).loc main_arg11)) (m ((c.tc : Thread nD τ).loc main_arg12)) := by
  rw [KRun.W4_newNodes, KVal.region1_value]
  funext i
  unfold KVal.nodesOf Cert.Spec.newNodes
  exact KVal.nodeRow_eq_spec _ _ _ _ _ _ (i 0) (i 1) _ _ _ _ _ _ _
    (fun k => congrFun (Entry1.V3_main_arg0 m ρ c) _) (fun k => congrFun (Entry1.V3_main_arg2 m ρ c) _)
    (fun k j => Entry1.V3_v38 m ρ c k j) (fun k j => Entry1.V3_v39 m ρ c k j) (fun j => Entry1.V3_v41 m ρ c j)
    (fun k j => congrFun (Entry1.V3_v40 m ρ c) _) (fun j => Entry1.V3_v42 m ρ c j)

/-- The message kernel's output, on every device: the specification's `messages` of the arguments, the source and
    destination node of an edge being the rows its two start indices name. -/
theorem messages_value (c : Dev nD) :
    (Gen.dat0 (Gen.V1 m ρ) c).arrAt 11 cfg0.N
      = Cert.Spec.messages (Entry0.sK m ρ c) (Entry0.dK m ρ c) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  rw [KVal.region0_value]
  funext i
  unfold KVal.messagesOf Cert.Spec.messages
  exact KVal.msgRow_eq_spec _ _ _ _ _ _ _ _ _ _ _ (i 0) (i 1) _ _ _ _ _ _ _ _ _ _ _
    (fun k => Entry0.v14_at_node m ρ c (i 0) k) (fun k => Entry0.v14_at_st m ρ c (i 0) k)
    (fun k => Entry0.v21_at m ρ c (i 0) k) (fun k => congrFun (Entry0.v5_eq m ρ c) _)
    (fun k j => Entry0.v25_at_lo m ρ c k j) (fun k j => Entry0.v25_at_hi m ρ c k j)
    (fun k j => Entry0.v26_at m ρ c k j) (fun k j => Entry0.v27_at m ρ c k j)
    (fun j => Entry0.v30_at m ρ c j) (fun k j => congrFun (Entry0.v28_eq m ρ c) _) (fun j => Entry0.v31_at m ρ c j)
    (fun k j => congrFun (Entry0.v29_eq m ρ c) _) (fun j => Entry0.v32_at m ρ c j)

/-- The aggregated messages, on every device: the scatter-add into zeros, at the destination indices, of the
    specification's `messages`. -/
theorem aggregated_value (c : Dev nD) :
    Gen.W4 m ρ c (Proc.devRef .tc main_v36)
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (Gen.W1 m ρ c (Proc.devRef .tc main_v3)))
          (Cert.Spec.messages (Entry0.sK m ρ c) (Entry0.dK m ρ c) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8))) := by
  rw [KRun.W4_aggregated, messages_value]

end Cert.KernelIdeal.KFinal

end
-- ==== Proof.RefNodes.lean ====
/-
  The reference program's node update, read at an index, is the specification's formula.

  The updated node array is node + (relu((node | spacetime) · W1 + b1) · W2 + b2). Read at (n, c) the outer
  contraction is a sum over the 128 hidden units; a hidden unit is the rectified sum over the 96 columns of the
  joined row (node[n] | spacetime[n]) against the 96 × 128 matrix plus the bias. The 96-term sum is the 64-term
  sum over the node's columns (rows 0–63 of the matrix) plus the 32-term sum over the spacetime columns (rows
  64–95), which is how the specification writes it.
-/
import proofs.«160387_j82592221102879_2_alg».proof.Proof.Gen.ReferenceIdeal.Read
import proofs.«160387_j82592221102879_2_alg».proof.Proof.Spec
import proofs.«160387_j82592221102879_2_alg».proof.Proof.LibConcatAt

noncomputable section

open scoped BigOperators

namespace Cert.ReferenceIdeal.RefValue

open Cert.ReferenceIdeal Cert.ReferenceIdeal.Gen Cert.ReferenceIdeal.Read Idealize.ShloMosaic Idealize.ShloMosaic.ValueIdx

/-- Two rank-2 indices with the same coordinate values are equal. -/
theorem idx2_ext {n0 n1 : Nat} (a b : (⟨2, ![n0, n1]⟩ : Shape).Idx) (h0 : (a 0).val = (b 0).val)
    (h1 : (a 1).val = (b 1).val) : a = b :=
  funext fun d => Fin.ext (by
    match d with
    | ⟨0, _⟩ => exact h0
    | ⟨1, _⟩ => exact h1)

/-- Two rank-1 indices with the same coordinate value are equal. -/
theorem idx1_ext {n0 : Nat} (a b : (⟨1, ![n0]⟩ : Shape).Idx) (h0 : (a 0).val = (b 0).val) : a = b :=
  funext fun d => Fin.ext (by
    match d with
    | ⟨0, _⟩ => exact h0)

section Nodes

variable (x0 : (⟨S50000x64, .f32⟩ : BufTy).Contents (Elt Ideal)) (x2 : (⟨S50000x32, .f32⟩ : BufTy).Contents (Elt Ideal))
  (x9 : (⟨S96x128, .f32⟩ : BufTy).Contents (Elt Ideal)) (x10 : (⟨S128, .f32⟩ : BufTy).Contents (Elt Ideal))
  (x11 : (⟨S128x64, .f32⟩ : BufTy).Contents (Elt Ideal)) (x12 : (⟨S64, .f32⟩ : BufTy).Contents (Elt Ideal))

/-- The joined row (node | spacetime) at a column of the node part. -/
theorem v43_left (j : S50000x96.Idx) (r : Fin 50000) (k : Fin 64) (hr : (j 0).val = r.val) (hk : (j 1).val = k.val) :
    val_main_v43 (F := Ideal) x0 x2 j = x0 (ix2 r k) := by
  unfold val_main_v43
  exact Cert.Proof.ConcatAt.pair_left x0 x2 _ j r k hr hk

/-- The joined row (node | spacetime) at a column of the spacetime part. -/
theorem v43_right (j : S50000x96.Idx) (r : Fin 50000) (k : Fin 32) (hr : (j 0).val = r.val) (hk : (j 1).val = 64 + k.val) :
    val_main_v43 (F := Ideal) x0 x2 j = x2 (ix2 r k) := by
  unfold val_main_v43
  exact Cert.Proof.ConcatAt.pair_right x0 x2 _ j r k hr hk

/-- The first layer's product at (n, j): the 96-term sum is the node part plus the spacetime part. -/
theorem v44_at (n : Fin 50000) (j : Fin 128) :
    val_main_v44 (F := Ideal) x0 x2 x9 (ix2 n j)
      = (∑ k : Fin 64, x0 (ix2 n k) * x9 (ix2 (Cert.Spec.shift 96 0 (by omega) k) j))
        + ∑ k : Fin 32, x2 (ix2 n k) * x9 (ix2 (Cert.Spec.shift 96 64 (by omega) k) j) := by
  rw [val_main_v44_apply]
  refine (Fin.sum_univ_add (a := 64) (b := 32) _).trans ?_
  congr 1
  · refine Finset.sum_congr rfl fun k _ => ?_
    rw [v43_left x0 x2 _ n k rfl rfl]
    exact congrArg (fun t => x0 (ix2 n k) * x9 t) (idx2_ext _ _ (Nat.zero_add _).symm rfl)
  · refine Finset.sum_congr rfl fun k _ => ?_
    rw [v43_right x0 x2 _ n k rfl rfl]
    exact congrArg (fun t => x2 (ix2 n k) * x9 t) (idx2_ext _ _ rfl rfl)

/-- The hidden layer of the update at (n, j). -/
theorem v48_at (n : Fin 50000) (j : Fin 128) :
    val_main_v48 (F := Ideal) x0 x2 x9 x10 (ix2 n j) = Cert.Spec.uhid x0 x2 x9 x10 n j := by
  rw [val_main_v48_apply, val_main_v47_apply, v44_at, val_main_v46_apply, val_main_v45_apply,
    val_main_call2_v0_apply, val_main_call2_cst_apply, Ideal.maximumf_def, Ideal.addf_def, Ideal.ofBits_def,
    Ideal.ofBits_zero_f32]
  unfold Cert.Spec.uhid
  exact congrArg (fun t => max (_ + x10 t) 0) (idx1_ext _ _ rfl)

/-- The reference's updated nodes are the specification's. -/
theorem newNodes_eq :
    val_main_v53 (F := Ideal) x0 x2 x9 x10 x11 x12 = Cert.Spec.newNodes x0 x2 x9 x10 x11 x12 := by
  funext i
  obtain ⟨n, c, rfl⟩ : ∃ (n : Fin 50000) (c : Fin 64), i = ix2 n c := ⟨i 0, i 1, eq_ix2 i⟩
  rw [val_main_v53_apply, val_main_v52_apply, val_main_v49_apply, val_main_v51_apply, val_main_v50_apply,
    Ideal.addf_def, Ideal.addf_def]
  show _ = Cert.Spec.upd x0 x2 x9 x10 x11 x12 n c
  unfold Cert.Spec.upd
  have hs : (∑ k : Fin 128, val_main_v48 (F := Ideal) x0 x2 x9 x10 (lidx_main_v49 (ix2 n c) k) * x11 (ridx_main_v49 (ix2 n c) k))
      = ∑ k : Fin 128, Cert.Spec.uhid x0 x2 x9 x10 n k * x11 (ix2 k c) := by
    refine Finset.sum_congr rfl fun k _ => ?_
    rw [show lidx_main_v49 (ix2 n c) k = ix2 n k from idx2_ext _ _ rfl rfl, v48_at,
      show ridx_main_v49 (ix2 n c) k = ix2 k c from idx2_ext _ _ rfl rfl]
  rw [hs]
  exact congrArg (fun t => x0 (ix2 n c) + (_ + x12 t)) (idx1_ext _ _ rfl)

end Nodes

end Cert.ReferenceIdeal.RefValue

end
-- ==== Proof.LibConcatCols.lean ====
/-
  Matrices with the same number of rows laid side by side, read at an index.

  For `x₁ : [n, a]` and `x₂ : [n, b]` joined along the columns into `[n, c]` (`c = a + b`):

  * `concat_cols_left`: at `(r, k)` with `k < a` the joined array is `x₁ (r, k)`;
  * `concat_cols_right`: at `(r, a + k)` with `k < b` it is `x₂ (r, k)`.

  The same for four and for five matrices side by side (`concat4_cols_p`, `concat5_cols_p`): piece `p` starts at the
  sum of the extents before it.
-/
import Idealize.ShloMosaic.Lib.ValueIdx
import Idealize.ShloMosaic.Lib.Pipeline.Value

noncomputable section

namespace Cert.Proof.ConcatCols

open Idealize.ShloMosaic Idealize.ShloMosaic.ValueIdx

variable {α : Type}

/-- A column of the left piece. -/
theorem concat_cols_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (k : Fin a) (hk : k.val < c) :
    concatenate ⟨2, ![n, c]⟩ (1 : Fin 2) [⟨⟨2, ![n, a]⟩, x₁⟩, ⟨⟨2, ![n, b]⟩, x₂⟩] h (ix2 r ⟨k.val, hk⟩) = x₁ (ix2 r k) :=
  concatenate_pair_apply_left (1 : Fin 2) x₁ x₂ h (ix2 r ⟨k.val, hk⟩) rfl (ix2 r k) (fun bx => by
    match bx with
    | ⟨0, _⟩ => rfl
    | ⟨1, _⟩ => rfl)

/-- A column of the right piece. -/
theorem concat_cols_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (k : Fin b) (hk : a + k.val < c) :
    concatenate ⟨2, ![n, c]⟩ (1 : Fin 2) [⟨⟨2, ![n, a]⟩, x₁⟩, ⟨⟨2, ![n, b]⟩, x₂⟩] h (ix2 r ⟨a + k.val, hk⟩) = x₂ (ix2 r k) :=
  concatenate_pair_apply_right (1 : Fin 2) x₁ x₂ h (ix2 r ⟨a + k.val, hk⟩) rfl rfl (ix2 r k) (fun bx hb => by
    match bx with
    | ⟨0, _⟩ => rfl
    | ⟨1, _⟩ => exact absurd rfl hb)
    (by show k.val + a = a + k.val; omega)

/-! ## Four and five pieces -/

/-- Piece 0 of 4 laid side by side: at `(r, k)` the joined array is piece 0 at `(r, k)`. -/
theorem concat4_cols_0 {n a0 a1 a2 a3 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape), (⟨2, ![n, a3]⟩ : Shape)] ⟨2, ![n, c]⟩ (1 : Fin 2))
    (r : Fin n) (k : Fin a0) (hk : k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨k.val, hk⟩) = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨k.val, hk⟩) 0 (by simp) ⟨2, ![n, a0]⟩ x0 rfl rfl (0)
    (by simp <;> omega) (ix2 r k) (fun bx hb => by
      match bx with
      | ⟨0, _⟩ => rfl
      | ⟨1, _⟩ => exact absurd rfl hb) (Nat.zero_add _)

/-- Piece 1 of 4 laid side by side: at `(r, a0 + k)` the joined array is piece 1 at `(r, k)`. -/
theorem concat4_cols_1 {n a0 a1 a2 a3 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape), (⟨2, ![n, a3]⟩ : Shape)] ⟨2, ![n, c]⟩ (1 : Fin 2))
    (r : Fin n) (k : Fin a1) (hk : a0 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + k.val, hk⟩) = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + k.val, hk⟩) 1 (by simp) ⟨2, ![n, a1]⟩ x1 rfl rfl (a0)
    (by simp <;> omega) (ix2 r k) (fun bx hb => by
      match bx with
      | ⟨0, _⟩ => rfl
      | ⟨1, _⟩ => exact absurd rfl hb) rfl

/-- Piece 2 of 4 laid side by side: at `(r, a0 + a1 + k)` the joined array is piece 2 at `(r, k)`. -/
theorem concat4_cols_2 {n a0 a1 a2 a3 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape), (⟨2, ![n, a3]⟩ : Shape)] ⟨2, ![n, c]⟩ (1 : Fin 2))
    (r : Fin n) (k : Fin a2) (hk : a0 + a1 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + a1 + k.val, hk⟩) = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + a1 + k.val, hk⟩) 2 (by simp) ⟨2, ![n, a2]⟩ x2 rfl rfl (a0 + a1)
    (by simp <;> omega) (ix2 r k) (fun bx hb => by
      match bx with
      | ⟨0, _⟩ => rfl
      | ⟨1, _⟩ => exact absurd rfl hb) rfl

/-- Piece 3 of 4 laid side by side: at `(r, a0 + a1 + a2 + k)` the joined array is piece 3 at `(r, k)`. -/
theorem concat4_cols_3 {n a0 a1 a2 a3 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α)
    (h : Shape.Concatenates [(⟨2, ![n, a0]⟩ : Shape), (⟨2, ![n, a1]⟩ : Shape), (⟨2, ![n, a2]⟩ : Shape), (⟨2, ![n, a3]⟩ : Shape)] ⟨2, ![n, c]⟩ (1 : Fin 2))
    (r : Fin n) (k : Fin a3) (hk : a0 + a1 + a2 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + a1 + a2 + k.val, hk⟩) = x3 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 r ⟨a0 + a1 + a2 + k.val, hk⟩) 3 (by simp) ⟨2, ![n, a3]⟩ x3 rfl rfl (a0 + a1 + a2)
    (by simp <;> omega) (ix2 r k) (fun bx hb => by
      match bx with
      | ⟨0, _⟩ => rfl
      | ⟨1, _⟩ => exact absurd rfl hb) rfl

/-- Piece 0 of 5 laid side by side: at `(r, k)` the joined array is piece 0 at `(r, k)`. -/
theorem concat5_cols_0 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a0) (hk : k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨k.val, hk⟩) = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨k.val, hk⟩) 0 (by simp) ⟨2, ![n, a0]⟩ x0 rfl rfl (0)
    (by simp <;> omega) (ix2 r k) (fun bx hb => by
      match bx with
      | ⟨0, _⟩ => rfl
      | ⟨1, _⟩ => exact absurd rfl hb) (Nat.zero_add _)

/-- Piece 1 of 5 laid side by side: at `(r, a0 + k)` the joined array is piece 1 at `(r, k)`. -/
theorem concat5_cols_1 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a1) (hk : a0 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + k.val, hk⟩) = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + k.val, hk⟩) 1 (by simp) ⟨2, ![n, a1]⟩ x1 rfl rfl (a0)
    (by simp <;> omega) (ix2 r k) (fun bx hb => by
      match bx with
      | ⟨0, _⟩ => rfl
      | ⟨1, _⟩ => exact absurd rfl hb) rfl

/-- Piece 2 of 5 laid side by side: at `(r, a0 + a1 + k)` the joined array is piece 2 at `(r, k)`. -/
theorem concat5_cols_2 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a2) (hk : a0 + a1 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + k.val, hk⟩) = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + k.val, hk⟩) 2 (by simp) ⟨2, ![n, a2]⟩ x2 rfl rfl (a0 + a1)
    (by simp <;> omega) (ix2 r k) (fun bx hb => by
      match bx with
      | ⟨0, _⟩ => rfl
      | ⟨1, _⟩ => exact absurd rfl hb) rfl

/-- Piece 3 of 5 laid side by side: at `(r, a0 + a1 + a2 + k)` the joined array is piece 3 at `(r, k)`. -/
theorem concat5_cols_3 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a3) (hk : a0 + a1 + a2 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + a2 + k.val, hk⟩) = x3 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + a2 + k.val, hk⟩) 3 (by simp) ⟨2, ![n, a3]⟩ x3 rfl rfl (a0 + a1 + a2)
    (by simp <;> omega) (ix2 r k) (fun bx hb => by
      match bx with
      | ⟨0, _⟩ => rfl
      | ⟨1, _⟩ => exact absurd rfl hb) rfl

/-- Piece 4 of 5 laid side by side: at `(r, a0 + a1 + a2 + a3 + k)` the joined array is piece 4 at `(r, k)`. -/
theorem concat5_cols_4 {n a0 a1 a2 a3 a4 c : ℕ} (x0 : (⟨2, ![n, a0]⟩ : Shape).Idx → α) (x1 : (⟨2, ![n, a1]⟩ : Shape).Idx → α) (x2 : (⟨2, ![n, a2]⟩ : Shape).Idx → α) (x3 : (⟨2, ![n, a3]⟩ : Shape).Idx → α) (x4 : (⟨2, ![n, a4]⟩ : Shape).Idx → α)
    (h : Shape.Concatenates [(⟨2, ![n, a0]⟩ : Shape), (⟨2, ![n, a1]⟩ : Shape), (⟨2, ![n, a2]⟩ : Shape), (⟨2, ![n, a3]⟩ : Shape), (⟨2, ![n, a4]⟩ : Shape)] ⟨2, ![n, c]⟩ (1 : Fin 2))
    (r : Fin n) (k : Fin a4) (hk : a0 + a1 + a2 + a3 + k.val < c) :
    concatenate ⟨2, ![n, c]⟩ (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + a2 + a3 + k.val, hk⟩) = x4 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩, ⟨⟨2, ![n, a3]⟩, x3⟩, ⟨⟨2, ![n, a4]⟩, x4⟩] h (ix2 r ⟨a0 + a1 + a2 + a3 + k.val, hk⟩) 4 (by simp) ⟨2, ![n, a4]⟩ x4 rfl rfl (a0 + a1 + a2 + a3)
    (by simp <;> omega) (ix2 r k) (fun bx hb => by
      match bx with
      | ⟨0, _⟩ => rfl
      | ⟨1, _⟩ => exact absurd rfl hb) rfl

end Cert.Proof.ConcatCols

end
-- ==== Proof.RefMessages.lean ====
/-
  The reference program's edge messages, read at an index, are the specification's formula.

  The message array is a three-layer perceptron over the rows (node[s e] | node[d e] | edge[e] | spacetime[s e]) of
  64 + 64 + 32 + 32 = 192 numbers, where s e and d e are the rows the gathers' start indices name. Read at (e, j) the
  first layer's product is a sum over the 192 columns of the joined row; it splits, in the order of the pieces, into
  the four partial sums against rows 0–63, 64–127, 128–159 and 160–191 of the 192 × 128 matrix, and each piece is read
  through the concatenate and, for three of them, through the row gather. The second and third layers are plain
  128-term sums over the previous layer. The program computes the source start indices twice, by the same
  operations on the same argument; the two arrays are the same function of it.
-/
import proofs.«160387_j82592221102879_2_alg».proof.Proof.Gen.ReferenceIdeal.Read
import proofs.«160387_j82592221102879_2_alg».proof.Proof.Spec
import proofs.«160387_j82592221102879_2_alg».proof.Proof.LibConcatCols
import proofs.«160387_j82592221102879_2_alg».proof.Proof.LibGatherRows
import proofs.«160387_j82592221102879_2_alg».proof.Proof.RefNodes

noncomputable section

open scoped BigOperators

namespace Cert.ReferenceIdeal.RefValue

open Cert.ReferenceIdeal Cert.ReferenceIdeal.Gen Cert.ReferenceIdeal.Read Idealize.ShloMosaic Idealize.ShloMosaic.ValueIdx

section Messages

variable (x0 : (⟨S50000x64, .f32⟩ : BufTy).Contents (Elt Ideal)) (x1 : (⟨S800000x32, .f32⟩ : BufTy).Contents (Elt Ideal))
  (x2 : (⟨S50000x32, .f32⟩ : BufTy).Contents (Elt Ideal)) (x3 : (⟨S192x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x64, .f32⟩ : BufTy).Contents (Elt Ideal))
  (x8 : (⟨S64, .f32⟩ : BufTy).Contents (Elt Ideal)) (x13 : (⟨S800000x2, .i32⟩ : BufTy).Contents (Elt Ideal))

/-- The source node of an edge: the row the first gather's start index names. -/
abbrev src (e : Fin 800000) : Fin 50000 :=
  Cert.GatherRows.rowOf (N := 50000) (by decide) (val_main_v9 (F := Ideal) x13) e

/-- The destination node of an edge: the row the second gather's start index names. -/
abbrev dst (e : Fin 800000) : Fin 50000 :=
  Cert.GatherRows.rowOf (N := 50000) (by decide) (val_main_v16 (F := Ideal) x13) e

/-- The source start indices are computed twice; both computations are the same function of the edge list. -/
theorem v23_eq_v9 : val_main_v23 (F := Ideal) x13 = val_main_v9 (F := Ideal) x13 := rfl

/-- The gathered source node rows at (e, k). -/
theorem v10_at (e : Fin 800000) (k : Fin 64) :
    val_main_v10 (F := Ideal) x0 x13 (ix2 e k) = x0 (ix2 (src x13 e) k) := by
  unfold val_main_v10
  exact Cert.GatherRows.gather2_apply (by decide) _ x0 (val_main_v9 (F := Ideal) x13) e k

/-- The gathered destination node rows at (e, k). -/
theorem v17_at (e : Fin 800000) (k : Fin 64) :
    val_main_v17 (F := Ideal) x0 x13 (ix2 e k) = x0 (ix2 (dst x13 e) k) := by
  unfold val_main_v17
  exact Cert.GatherRows.gather2_apply (by decide) _ x0 (val_main_v16 (F := Ideal) x13) e k

/-- The gathered source spacetime rows at (e, k). -/
theorem v24_at (e : Fin 800000) (k : Fin 32) :
    val_main_v24 (F := Ideal) x2 x13 (ix2 e k) = x2 (ix2 (src x13 e) k) := by
  unfold val_main_v24
  rw [v23_eq_v9]
  exact Cert.GatherRows.gather2_apply (by decide) _ x2 (val_main_v9 (F := Ideal) x13) e k

/-- The joined row at a column of piece 0 (the source node). -/
theorem v25_p0 (j : S800000x192.Idx) (e : Fin 800000) (k : Fin 64) (hr : (j 0).val = e.val) (hk : (j 1).val = k.val) :
    val_main_v25 (F := Ideal) x0 x1 x2 x13 j = x0 (ix2 (src x13 e) k) := by
  have hj : j = ix2 e ⟨k.val, by have := k.isLt; omega⟩ := idx2_ext _ _ hr hk
  rw [hj]
  unfold val_main_v25
  exact (Cert.Proof.ConcatCols.concat4_cols_0 _ _ _ _ _ e k _).trans (v10_at x0 x13 e k)

/-- The joined row at a column of piece 1 (the destination node). -/
theorem v25_p1 (j : S800000x192.Idx) (e : Fin 800000) (k : Fin 64) (hr : (j 0).val = e.val)
    (hk : (j 1).val = 64 + k.val) :
    val_main_v25 (F := Ideal) x0 x1 x2 x13 j = x0 (ix2 (dst x13 e) k) := by
  have hj : j = ix2 e ⟨64 + k.val, by have := k.isLt; omega⟩ := idx2_ext _ _ hr hk
  rw [hj]
  unfold val_main_v25
  exact (Cert.Proof.ConcatCols.concat4_cols_1 _ _ _ _ _ e k _).trans (v17_at x0 x13 e k)

/-- The joined row at a column of piece 2 (the edge's own features). -/
theorem v25_p2 (j : S800000x192.Idx) (e : Fin 800000) (k : Fin 32) (hr : (j 0).val = e.val)
    (hk : (j 1).val = 64 + 64 + k.val) :
    val_main_v25 (F := Ideal) x0 x1 x2 x13 j = x1 (ix2 e k) := by
  have hj : j = ix2 e ⟨64 + 64 + k.val, by have := k.isLt; omega⟩ := idx2_ext _ _ hr hk
  rw [hj]
  unfold val_main_v25
  exact Cert.Proof.ConcatCols.concat4_cols_2 _ _ _ _ _ e k _

/-- The joined row at a column of piece 3 (the source spacetime). -/
theorem v25_p3 (j : S800000x192.Idx) (e : Fin 800000) (k : Fin 32) (hr : (j 0).val = e.val)
    (hk : (j 1).val = 64 + 64 + 32 + k.val) :
    val_main_v25 (F := Ideal) x0 x1 x2 x13 j = x2 (ix2 (src x13 e) k) := by
  have hj : j = ix2 e ⟨64 + 64 + 32 + k.val, by have := k.isLt; omega⟩ := idx2_ext _ _ hr hk
  rw [hj]
  unfold val_main_v25
  exact (Cert.Proof.ConcatCols.concat4_cols_3 _ _ _ _ _ e k _).trans (v24_at x2 x13 e k)

/-- The first layer's product at (e, j): the 192-term sum is the four partial sums, in the pieces' order. -/
theorem v26_at (e : Fin 800000) (j : Fin 128) :
    val_main_v26 (F := Ideal) x0 x1 x2 x3 x13 (ix2 e j)
      = (((∑ k : Fin 64, x0 (ix2 (src x13 e) k) * x3 (ix2 (Cert.Spec.shift 192 0 (by omega) k) j))
        + ∑ k : Fin 64, x0 (ix2 (dst x13 e) k) * x3 (ix2 (Cert.Spec.shift 192 64 (by omega) k) j))
        + ∑ k : Fin 32, x1 (ix2 e k) * x3 (ix2 (Cert.Spec.shift 192 128 (by omega) k) j))
        + ∑ k : Fin 32, x2 (ix2 (src x13 e) k) * x3 (ix2 (Cert.Spec.shift 192 160 (by omega) k) j) := by
  rw [val_main_v26_apply]
  refine (Fin.sum_univ_add (a := 64 + 64 + 32) (b := 32) _).trans ?_
  congr 1
  · refine (Fin.sum_univ_add (a := 64 + 64) (b := 32) _).trans ?_
    congr 1
    · refine (Fin.sum_univ_add (a := 64) (b := 64) _).trans ?_
      congr 1
      · refine Finset.sum_congr rfl fun k _ => ?_
        rw [v25_p0 x0 x1 x2 x13 _ e k rfl rfl]
        exact congrArg (fun t => x0 (ix2 (src x13 e) k) * x3 t) (idx2_ext _ _ (Nat.zero_add _).symm rfl)
      · refine Finset.sum_congr rfl fun k _ => ?_
        rw [v25_p1 x0 x1 x2 x13 _ e k rfl rfl]
        exact congrArg (fun t => x0 (ix2 (dst x13 e) k) * x3 t) (idx2_ext _ _ rfl rfl)
    · refine Finset.sum_congr rfl fun k _ => ?_
      rw [v25_p2 x0 x1 x2 x13 _ e k rfl rfl]
      exact congrArg (fun t => x1 (ix2 e k) * x3 t) (idx2_ext _ _ rfl rfl)
  · refine Finset.sum_congr rfl fun k _ => ?_
    rw [v25_p3 x0 x1 x2 x13 _ e k rfl rfl]
    exact congrArg (fun t => x2 (ix2 (src x13 e) k) * x3 t) (idx2_ext _ _ rfl rfl)

/-- The first hidden layer at (e, j). -/
theorem v30_at (e : Fin 800000) (j : Fin 128) :
    val_main_v30 (F := Ideal) x0 x1 x2 x3 x4 x13 (ix2 e j)
      = Cert.Spec.hid1 (src x13) (dst x13) x0 x1 x2 x3 x4 e j := by
  rw [val_main_v30_apply, val_main_v29_apply, v26_at, val_main_v28_apply, val_main_v27_apply,
    val_main_call0_v0_apply, val_main_call0_cst_apply, Ideal.maximumf_def, Ideal.addf_def, Ideal.ofBits_def,
    Ideal.ofBits_zero_f32]
  unfold Cert.Spec.hid1
  exact congrArg (fun t => max (_ + x4 t) 0) (idx1_ext _ _ rfl)

/-- The second hidden layer at (e, j). -/
theorem v35_at (e : Fin 800000) (j : Fin 128) :
    val_main_v35 (F := Ideal) x0 x1 x2 x3 x4 x5 x6 x13 (ix2 e j)
      = Cert.Spec.hid2 (src x13) (dst x13) x0 x1 x2 x3 x4 x5 x6 e j := by
  rw [val_main_v35_apply, val_main_v34_apply, val_main_v31_apply, val_main_v33_apply, val_main_v32_apply,
    val_main_call1_v0_apply, val_main_call1_cst_apply, Ideal.maximumf_def, Ideal.addf_def, Ideal.ofBits_def,
    Ideal.ofBits_zero_f32]
  unfold Cert.Spec.hid2
  have hs : (∑ k : Fin 128, val_main_v30 (F := Ideal) x0 x1 x2 x3 x4 x13 (lidx_main_v31 (ix2 e j) k)
        * x5 (ridx_main_v31 (ix2 e j) k))
      = ∑ k : Fin 128, Cert.Spec.hid1 (src x13) (dst x13) x0 x1 x2 x3 x4 e k * x5 (ix2 k j) := by
    refine Finset.sum_congr rfl fun k _ => ?_
    rw [show lidx_main_v31 (ix2 e j) k = ix2 e k from idx2_ext _ _ rfl rfl, v30_at,
      show ridx_main_v31 (ix2 e j) k = ix2 k j from idx2_ext _ _ rfl rfl]
  rw [hs]
  exact congrArg (fun t => max (_ + x6 t) 0) (idx1_ext _ _ rfl)

/-- The message at (e, c). -/
theorem v39_at (e : Fin 800000) (c : Fin 64) :
    val_main_v39 (F := Ideal) x0 x1 x2 x3 x4 x5 x6 x7 x8 x13 (ix2 e c)
      = Cert.Spec.msg (src x13) (dst x13) x0 x1 x2 x3 x4 x5 x6 x7 x8 e c := by
  rw [val_main_v39_apply, val_main_v36_apply, val_main_v38_apply, val_main_v37_apply, Ideal.addf_def]
  unfold Cert.Spec.msg
  have hs : (∑ k : Fin 128, val_main_v35 (F := Ideal) x0 x1 x2 x3 x4 x5 x6 x13 (lidx_main_v36 (ix2 e c) k)
        * x7 (ridx_main_v36 (ix2 e c) k))
      = ∑ k : Fin 128, Cert.Spec.hid2 (src x13) (dst x13) x0 x1 x2 x3 x4 x5 x6 e k * x7 (ix2 k c) := by
    refine Finset.sum_congr rfl fun k _ => ?_
    rw [show lidx_main_v36 (ix2 e c) k = ix2 e k from idx2_ext _ _ rfl rfl, v35_at,
      show ridx_main_v36 (ix2 e c) k = ix2 k c from idx2_ext _ _ rfl rfl]
  rw [hs]
  exact congrArg (fun t => _ + x8 t) (idx1_ext _ _ rfl)

/-- The reference's messages are the specification's, with the source and destination of an edge the rows the
    gathers' start indices name. -/
theorem messages_eq :
    val_main_v39 (F := Ideal) x0 x1 x2 x3 x4 x5 x6 x7 x8 x13
      = Cert.Spec.messages (fun e => Cert.GatherRows.rowOf (by decide) (val_main_v9 (F := Ideal) x13) e)
          (fun e => Cert.GatherRows.rowOf (by decide) (val_main_v16 (F := Ideal) x13) e) x0 x1 x2 x3 x4 x5 x6 x7 x8 := by
  funext i
  obtain ⟨e, c, rfl⟩ : ∃ (e : Fin 800000) (c : Fin 64), i = ix2 e c := ⟨i 0, i 1, eq_ix2 i⟩
  exact v39_at x0 x1 x2 x3 x4 x5 x6 x7 x8 x13 e c

end Messages

end Cert.ReferenceIdeal.RefValue

end
-- ==== Proof.RefRun.lean ====
/-
  The reference program's run, with its two results as the specification's formulas.

  Every weakly fair execution of the reference terminates with the updated nodes equal to the specification's
  updated nodes, and the aggregated messages equal to the scatter-add, into an array of zeros and at the rows the
  destination column of the edge list names, of the specification's messages; the arguments are unchanged. The
  zeros, the scatter's index array and the two gathers' start-index arrays are also given as the plain terms of
  the edge list they are by definition.
-/
import proofs.«160387_j82592221102879_2_alg».proof.Proof.Gen.ReferenceIdeal.Run
import proofs.«160387_j82592221102879_2_alg».proof.Proof.Gen.ReferenceIdeal.Read
import proofs.«160387_j82592221102879_2_alg».proof.Proof.RefNodes
import proofs.«160387_j82592221102879_2_alg».proof.Proof.RefMessages

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The array the scatter adds into is the broadcast of the float zero. -/
theorem v40_printed :
    val_main_v40 (F := Ideal) = broadcastInDim S50000x64 ![] bcast_S_S50000x64 (constant (F := Ideal) S_ .f32 0x00000000#32) := rfl

/-- The scatter's index array is column 1 of the edge list, as an [E, 1] array. -/
theorem v41_printed (x13 : (⟨S800000x2, .i32⟩ : BufTy).Contents (Elt Ideal)) :
    val_main_v41 (F := Ideal) x13
      = broadcastInDim S800000x1 ![0] bcast_S800000_S800000x1_0 (shapeCast _ (extractStridedSlice S800000x1 ![0, 1] (x13) slices_S800000x2_S800000x1_0_1) shapeCasts_S800000x1_S800000) := rfl

/-- The source gathers' start indices: column 0 of the edge list, with 50000 added where it is negative. -/
theorem v9_printed (x13 : (⟨S800000x2, .i32⟩ : BufTy).Contents (Elt Ideal)) :
    val_main_v9 (F := Ideal) x13
      = broadcastInDim S800000x1 ![0] bcast_S800000_S800000x1_0 (select (cmpi .slt (shapeCast _ (extractStridedSlice S800000x1 ![0, 0] (x13) slices_S800000x2_S800000x1_0_0) shapeCasts_S800000x1_S800000) (broadcastInDim S800000 ![] bcast_S_S800000 (constantI S_ 32 0#32))) (addi (shapeCast _ (extractStridedSlice S800000x1 ![0, 0] (x13) slices_S800000x2_S800000x1_0_0) shapeCasts_S800000x1_S800000) (broadcastInDim S800000 ![] bcast_S_S800000 (constantI S_ 32 50000#32))) (shapeCast _ (extractStridedSlice S800000x1 ![0, 0] (x13) slices_S800000x2_S800000x1_0_0) shapeCasts_S800000x1_S800000)) := rfl

/-- The destination gather's start indices: column 1 of the edge list, with 50000 added where it is negative. -/
theorem v16_printed (x13 : (⟨S800000x2, .i32⟩ : BufTy).Contents (Elt Ideal)) :
    val_main_v16 (F := Ideal) x13
      = broadcastInDim S800000x1 ![0] bcast_S800000_S800000x1_0 (select (cmpi .slt (shapeCast _ (extractStridedSlice S800000x1 ![0, 1] (x13) slices_S800000x2_S800000x1_0_1) shapeCasts_S800000x1_S800000) (broadcastInDim S800000 ![] bcast_S_S800000 (constantI S_ 32 0#32))) (addi (shapeCast _ (extractStridedSlice S800000x1 ![0, 1] (x13) slices_S800000x2_S800000x1_0_1) shapeCasts_S800000x1_S800000) (broadcastInDim S800000 ![] bcast_S_S800000 (constantI S_ 32 50000#32))) (shapeCast _ (extractStridedSlice S800000x1 ![0, 1] (x13) slices_S800000x2_S800000x1_0_1) shapeCasts_S800000x1_S800000)) := rfl

/-- The aggregated messages as the scatter-add of the specification's messages. -/
theorem v42_eq (x0 : (⟨S50000x64, .f32⟩ : BufTy).Contents (Elt Ideal)) (x1 : (⟨S800000x32, .f32⟩ : BufTy).Contents (Elt Ideal))
    (x2 : (⟨S50000x32, .f32⟩ : BufTy).Contents (Elt Ideal)) (x3 : (⟨S192x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x13 : (⟨S800000x2, .i32⟩ : BufTy).Contents (Elt Ideal)) :
    val_main_v42 (F := Ideal) x0 x1 x2 x3 x4 x5 x6 x7 x8 x13
      = Host.scatterAdd scatter_S50000x64_S800000x1_S800000x64_1_0_0_1 (val_main_v40 (F := Ideal)) (val_main_v41 (F := Ideal) x13)
          (Cert.Spec.messages (src x13) (dst x13) x0 x1 x2 x3 x4 x5 x6 x7 x8) := by
  unfold val_main_v42
  rw [messages_eq]

/-- The reference's run: its two results are the specification's, its arguments are unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v53)
          = Cert.Spec.newNodes (m ((c.tc : Thread nD τ).loc main_arg0)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v42)
          = Host.scatterAdd scatter_S50000x64_S800000x1_S800000x64_1_0_0_1 (val_main_v40 (F := Ideal))
              (val_main_v41 (F := Ideal) (m ((c.tc : Thread nD τ).loc main_arg13)))
              (Cert.Spec.messages (src (m ((c.tc : Thread nD τ).loc main_arg13))) (dst (m ((c.tc : Thread nD τ).loc main_arg13))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨(h c).1.trans ((val_main_v53_eq _ _ _ _ _ _).trans (newNodes_eq _ _ _ _ _ _)),
        (h c).2.1.trans ((val_main_v42_eq _ _ _ _ _ _ _ _ _ _).trans (v42_eq _ _ _ _ _ _ _ _ _ _)),
        (h c).2.2⟩)
    (Cert.ReferenceIdeal.Value.run (F := Ideal) m ρ)

end Cert.ReferenceIdeal.RefValue

end
-- ==== Proof.lean ====
/-
  A message-passing layer on a graph of 50000 nodes and 800000 edges: the kernel program against its reference,
  equal at the extended reals.

  Both programs send, along every edge e from its source s e to its destination d e, the message of a three-layer
  perceptron applied to the row (node[s e], node[d e], edge[e], spacetime[s e]), add up the messages arriving at each
  node (a scatter-add into zeros at the destination indices), and separately update every node n by adding to node[n]
  a two-layer perceptron of the row (node[n], spacetime[n]). The reference multiplies the whole 192-entry row by the
  192 × 128 first weight matrix; the kernel program gathers (node, spacetime) of the source as one 96-entry piece and
  multiplies the three pieces it holds by the matching row blocks of the matrix, adding the three products. On the
  extended reals a change of float format is the identity and a product into a zero accumulator is the plain sum of
  products, so both first layers are the sum of the same four partial products, grouped differently; addition of
  extended reals is commutative and associative, so they agree, with no appeal to finiteness. The same holds, with
  two pieces, for the node update. The specification (Spec) writes both results as formulas of the argument arrays;
  the kernel program's two pipelined regions are read block by block into whole-array functions (KRegion0, KRegion1)
  over per-row formulas (KPayload) that are the specification's (KBridge) once the host operations around the regions
  are read at an index (KernelEntry0, KernelEntry1); the reference's run is read operation by operation (RefNodes,
  RefMessages, RefRun). The two programs compute their gather and scatter indices by the same operations on the same
  edge list. The three frames are the generated ones, and the idealization rewrote nothing.
-/
import proofs.«160387_j82592221102879_2_alg».proof.Defs
import proofs.«160387_j82592221102879_2_alg».proof.Proof.Gen.Kernel
import proofs.«160387_j82592221102879_2_alg».proof.Proof.Gen.Kernel.Skeleton
import proofs.«160387_j82592221102879_2_alg».proof.Proof.Gen.Kernel.Launch
import proofs.«160387_j82592221102879_2_alg».proof.Proof.Gen.Kernel.Points
import proofs.«160387_j82592221102879_2_alg».proof.Proof.Gen.Kernel.Frame
import proofs.«160387_j82592221102879_2_alg».proof.Proof.Gen.KernelIdeal
import proofs.«160387_j82592221102879_2_alg».proof.Proof.Gen.KernelIdeal.Skeleton
import proofs.«160387_j82592221102879_2_alg».proof.Proof.Gen.KernelIdeal.Launch
import proofs.«160387_j82592221102879_2_alg».proof.Proof.Gen.KernelIdeal.Points
import proofs.«160387_j82592221102879_2_alg».proof.Proof.Gen.KernelIdeal.Frame
import proofs.«160387_j82592221102879_2_alg».proof.Proof.Gen.ReferenceIdeal
import proofs.«160387_j82592221102879_2_alg».proof.Proof.Gen.ReferenceIdeal.Run
import proofs.«160387_j82592221102879_2_alg».proof.Proof.Gen.ReferenceIdeal.Read
import proofs.«160387_j82592221102879_2_alg».proof.Proof.Gen.Pre_finite_inputs
import Idealize.ShloMosaic.Adequacy
import Idealize.ShloMosaic.Init

import proofs.«160387_j82592221102879_2_alg».proof.Proof.KernelRun
import proofs.«160387_j82592221102879_2_alg».proof.Proof.KFinal
import proofs.«160387_j82592221102879_2_alg».proof.Proof.RefRun

set_option maxRecDepth 16384

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a host program: its generated run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs compute the same source and destination node of every edge: the same index operations on the
    same edge list. -/
theorem src_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.RefValue.src (m ((c.tc : Thread Cert.KernelIdeal.nD Cert.KernelIdeal.τ).loc Cert.KernelIdeal.main_arg13))
      = Cert.KernelIdeal.Entry0.sK m ρ c := by
  funext e
  show Cert.GatherRows.rowOf _ (Cert.ReferenceIdeal.Read.val_main_v9 (F := Ideal) _) e
    = Cert.GatherRows.rowOf _ (Cert.KernelIdeal.Gen.V1 m ρ c Cert.KernelIdeal.main_v13) e
  rw [Cert.ReferenceIdeal.RefValue.v9_printed, Cert.KernelIdeal.Entry0.v13_eq m ρ c]

theorem dst_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.RefValue.dst (m ((c.tc : Thread Cert.KernelIdeal.nD Cert.KernelIdeal.τ).loc Cert.KernelIdeal.main_arg13))
      = Cert.KernelIdeal.Entry0.dK m ρ c := by
  funext e
  show Cert.GatherRows.rowOf _ (Cert.ReferenceIdeal.Read.val_main_v16 (F := Ideal) _) e
    = Cert.GatherRows.rowOf _ (Cert.KernelIdeal.Gen.V1 m ρ c Cert.KernelIdeal.main_v20) e
  rw [Cert.ReferenceIdeal.RefValue.v16_printed, Cert.KernelIdeal.Entry0.v20_eq m ρ c]

/-- At the extended reals, from memories agreeing on the arguments, both programs end with the specification's
    updated nodes and with the scatter-add, at the same destination indices, of the specification's messages. -/
theorem algebraic : Cert.algebraic_KernelIdeal_ReferenceIdeal := by
  intro m ρ m' ρ' _ hagree
  refine ⟨_, _, (θ_run Cert.KernelIdeal.defs _ _).mono (fun r h c =>
      ⟨(h c).1.trans (Cert.KernelIdeal.KFinal.newNodes_value m ρ c),
       (h c).2.1.trans (Cert.KernelIdeal.KFinal.aggregated_value m ρ c), (h c).2.2⟩)
    (Cert.KernelIdeal.KRun.run m ρ), ?_⟩
  refine (θ_run Cert.ReferenceIdeal.defs _ _).mono (fun r h c => ?_) (Cert.ReferenceIdeal.RefValue.run_spec m' ρ')
  obtain ⟨h0, h1, h2, h3, h4, h5, h6, h7, h8, h9, h10, h11, h12, h13⟩ := hagree c
  refine ⟨(h c).1.trans ?_, (h c).2.1.trans ?_, (h c).2.2⟩
  · rw [h0, h2, h9, h10, h11, h12]
  · rw [h0, h1, h2, h3, h4, h5, h6, h7, h8, h13, src_eq m ρ c, dst_eq m ρ c,
      Cert.ReferenceIdeal.RefValue.v40_printed, Cert.ReferenceIdeal.RefValue.v41_printed, Cert.KernelIdeal.Entry0.v3_eq m ρ c]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
